-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S300000x1 : S_.BroadcastsInDim S300000x1 (![] : Fin 0 → Fin S300000x1.rank)
  reducesTo_S300000x1_S_d0_1 : S300000x1.ReducesTo [0, 1] S_

variable [Facts]

def fn_part2 {F : FTy → Type} [FloatOps F] (main_arg11 : FVec F S300000x1 .f32) (main_v33 : IVec S_ 1) : IVec S_ 1 :=
  let main_v34 : FVec F S300000x1 .f32 := Host.absf main_arg11
  let main_cst_12 : FVec F S_ .f32 := constant S_ .f32 0x7F800000#32
  let main_v35 : FVec F S300000x1 .f32 := broadcastInDim S300000x1 ![] bcast_S_S300000x1 main_cst_12
  let main_v36 : IVec S300000x1 1 := cmpf .olt main_v34 main_v35
  let main_c_13 : IVec S_ 1 := constantI S_ 1 1#1
  let main_v37 : IVec S_ 1 := (fun x v => Host.reduce IntOp.andi x v reducesTo_S300000x1_S_d0_1 h_S_) main_v36 main_c_13
  let main_v38 : IVec S_ 1 := andi main_v33 main_v37
  main_v38

def fn_part1 {F : FTy → Type} [FloatOps F] (main_arg4 : FVec F S128x128 .f32) (main_arg5 : FVec F S128 .f32) (main_arg8 : FVec F S300000x1 .f32) (main_arg11 : FVec F S300000x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S300000x1 .f32 := Host.absf main_arg8
  let main_cst_10 : FVec F S_ .f32 := constant S_ .f32 0x7F800000#32
  let main_v30 : FVec F S300000x1 .f32 := broadcastInDim S300000x1 ![] bcast_S_S300000x1 main_cst_10
  let main_v31 : IVec S300000x1 1 := cmpf .olt main_v29 main_v30
  let main_c_11 : IVec S_ 1 := constantI S_ 1 1#1
  let main_v32 : IVec S_ 1 := (fun x v => Host.reduce IntOp.andi x v reducesTo_S300000x1_S_d0_1 h_S_) main_v31 main_c_11
  let main_v33 : IVec S_ 1 := andi main_v28 main_v32
  fn_part2 (F := F) main_arg11 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : IVec S300000 32) (main_arg7 : IVec S300000 32) (main_arg8 : FVec F S300000x1 .f32) (main_arg9 : IVec S300000 32) (main_arg10 : IVec S300000 32) (main_arg11 : FVec F S300000x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg8 main_arg11 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S5000x128 : Shape := ⟨2, ![5000, 128]⟩
abbrev S1x128 : Shape := ⟨2, ![1, 128]⟩
abbrev S_ : Shape := ⟨0, ![]⟩
abbrev S300000x128 : Shape := ⟨2, ![300000, 128]⟩
abbrev S5000 : Shape := ⟨1, ![5000]⟩
abbrev S5000x1 : Shape := ⟨2, ![5000, 1]⟩

abbrev nBuf : Space → Nat
  | .hbm => 78
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S300000, .i32⟩
  | .hbm, ⟨7, _⟩ => ⟨S300000, .i32⟩
  | .hbm, ⟨8, _⟩ => ⟨S300000x1, .f32⟩
  | .hbm, ⟨9, _⟩ => ⟨S300000, .i32⟩
  | .hbm, ⟨10, _⟩ => ⟨S300000, .i32⟩
  | .hbm, ⟨11, _⟩ => ⟨S300000x1, .f32⟩
  | .hbm, ⟨12, _⟩ => ⟨S128x128, .f32⟩
  | .hbm, ⟨13, _⟩ => ⟨S128x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x128, .f32⟩
  | .hbm, ⟨29, _⟩ => ⟨S_, .i32⟩
  | .hbm, ⟨30, _⟩ => ⟨S300000, .i32⟩
  | .hbm, ⟨31, _⟩ => ⟨S300000, .i1⟩
  | .hbm, ⟨32, _⟩ => ⟨S_, .i32⟩
  | .hbm, ⟨33, _⟩ => ⟨S300000, .i32⟩
  | .hbm, ⟨34, _⟩ => ⟨S300000, .i32⟩
  | .hbm, ⟨35, _⟩ => ⟨S300000, .i32⟩
  | .hbm, ⟨36, _⟩ => ⟨S300000x1, .i32⟩
  | .hbm, ⟨37, _⟩ => ⟨S300000x128, .f32⟩
  | .hbm, ⟨38, _⟩ => ⟨S300000x128, .f32⟩
  | .hbm, ⟨39, _⟩ => ⟨S1x128, .f32⟩
  | .hbm, ⟨40, _⟩ => ⟨S300000x128, .f32⟩
  | .hbm, ⟨41, _⟩ => ⟨S300000x128, .f32⟩
  | .hbm, ⟨42, _⟩ => ⟨S300000x128, .f32⟩
  | .hbm, ⟨43, _⟩ => ⟨S300000x128, .f32⟩
  | .hbm, ⟨44, _⟩ => ⟨S_, .f32⟩
  | .hbm, ⟨45, _⟩ => ⟨S50000x128, .f32⟩
  | .hbm, ⟨46, _⟩ => ⟨S300000x1, .i32⟩
  | .hbm, ⟨47, _⟩ => ⟨S50000x128, .f32⟩
  | .hbm, ⟨48, _⟩ => ⟨S_, .i32⟩
  | .hbm, ⟨49, _⟩ => ⟨S300000, .i32⟩
  | .hbm, ⟨50, _⟩ => ⟨S300000, .i1⟩
  | .hbm, ⟨51, _⟩ => ⟨S_, .i32⟩
  | .hbm, ⟨52, _⟩ => ⟨S300000, .i32⟩
  | .hbm, ⟨53, _⟩ => ⟨S300000, .i32⟩
  | .hbm, ⟨54, _⟩ => ⟨S300000, .i32⟩
  | .hbm, ⟨55, _⟩ => ⟨S300000x1, .i32⟩
  | .hbm, ⟨56, _⟩ => ⟨S300000x128, .f32⟩
  | .hbm, ⟨57, _⟩ => ⟨S_, .i32⟩
  | .hbm, ⟨58, _⟩ => ⟨S300000, .i32⟩
  | .hbm, ⟨59, _⟩ => ⟨S300000, .i1⟩
  | .hbm, ⟨60, _⟩ => ⟨S_, .i32⟩
  | .hbm, ⟨61, _⟩ => ⟨S300000, .i32⟩
  | .hbm, ⟨62, _⟩ => ⟨S300000, .i32⟩
  | .hbm, ⟨63, _⟩ => ⟨S300000, .i32⟩
  | .hbm, ⟨64, _⟩ => ⟨S300000x1, .i32⟩
  | .hbm, ⟨65, _⟩ => ⟨S300000x128, .f32⟩
  | .hbm, ⟨66, _⟩ => ⟨S300000x128, .f32⟩
  | .hbm, ⟨67, _⟩ => ⟨S1x128, .f32⟩
  | .hbm, ⟨68, _⟩ => ⟨S300000x128, .f32⟩
  | .hbm, ⟨69, _⟩ => ⟨S300000x128, .f32⟩
  | .hbm, ⟨70, _⟩ => ⟨S300000x128, .f32⟩
  | .hbm, ⟨71, _⟩ => ⟨S300000x128, .f32⟩
  | .hbm, ⟨72, _⟩ => ⟨S_, .f32⟩
  | .hbm, ⟨73, _⟩ => ⟨S100000x128, .f32⟩
  | .hbm, ⟨74, _⟩ => ⟨S300000x1, .i32⟩
  | .hbm, ⟨75, _⟩ => ⟨S100000x128, .f32⟩
  | .hbm, ⟨76, _⟩ => ⟨S100000x128, .f32⟩
  | .hbm, ⟨77, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S300000 : S_.BroadcastsInDim S300000 (![] : Fin 0 → Fin S300000.rank)
  bcast_S300000_S300000x1_0 : S300000.BroadcastsInDim S300000x1 (![0] : Fin 1 → Fin S300000x1.rank)
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S300000x1_S300000x128_0_1 : S300000x1.BroadcastsInDim S300000x128 (![0, 1] : Fin 2 → Fin S300000x128.rank)
  bcast_S_S50000x128 : S_.BroadcastsInDim S50000x128 (![] : Fin 0 → Fin S50000x128.rank)
  bcast_S_S100000x128 : S_.BroadcastsInDim S100000x128 (![] : Fin 0 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S300000x1_S300000x128_1_0_n_n_0_1_1128_wf : GatherDims.WF S100000x128 S300000x1 S300000x128 [1] [0] [] [0] [] 1 ![1, 128]
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  scatter_S100000x128_S300000x1_S300000x128_1_0_0_1_wf : ScatterDims.WF S100000x128 S300000x1 S300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v2_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S300000 : Shape := ⟨1, ![300000]⟩
abbrev S300000x1 : Shape := ⟨2, ![300000, 1]⟩
abbrev S1x128 : Shape := ⟨2, ![1, 128]⟩
abbrev S_ : Shape := ⟨0, ![]⟩
abbrev S300000x128 : Shape := ⟨2, ![300000, 128]⟩
abbrev S100000 : Shape := ⟨1, ![100000]⟩
abbrev S100000x1 : Shape := ⟨2, ![100000, 1]⟩
abbrev S50000 : Shape := ⟨1, ![50000]⟩
abbrev S50000x1 : Shape := ⟨2, ![50000, 1]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S300000, .i32⟩
  | 7 => ⟨S300000, .i32⟩
  | 8 => ⟨S300000x1, .f32⟩
  | 9 => ⟨S300000, .i32⟩
  | 10 => ⟨S300000, .i32⟩
  | 11 => ⟨S300000x1, .f32⟩
  | 12 => ⟨S128x128, .f32⟩
  | 13 => ⟨S100000x128, .f32⟩
  | 14 => ⟨S1x128, .f32⟩
  | 15 => ⟨S100000x128, .f32⟩
  | 16 => ⟨S100000x128, .f32⟩
  | 17 => ⟨S128x128, .f32⟩
  | 18 => ⟨S50000x128, .f32⟩
  | 19 => ⟨S1x128, .f32⟩
  | 20 => ⟨S50000x128, .f32⟩
  | 21 => ⟨S50000x128, .f32⟩
  | 22 => ⟨S128x128, .f32⟩
  | 23 => ⟨S100000x128, .f32⟩
  | 24 => ⟨S128x128, .f32⟩
  | 25 => ⟨S50000x128, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x128, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S300000x128, .f32⟩
  | 44 => ⟨S300000x128, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000x128, .f32⟩
  | 54 => ⟨S300000x128, .f32⟩
  | 55 => ⟨S1x128, .f32⟩
  | 56 => ⟨S300000x128, .f32⟩
  | 57 => ⟨S300000x128, .f32⟩
  | 58 => ⟨S300000x128, .f32⟩
  | 59 => ⟨S300000x128, .f32⟩
  | 60 => ⟨S_, .f32⟩
  | 61 => ⟨S50000x128, .f32⟩
  | 62 => ⟨S300000x1, .i32⟩
  | 63 => ⟨S50000x128, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x128, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x128, .f32⟩
  | 82 => ⟨S300000x128, .f32⟩
  | 83 => ⟨S_, .i32⟩
  | 84 => ⟨S300000, .i32⟩
  | 85 => ⟨S300000, .i1⟩
  | 86 => ⟨S_, .i32⟩
  | 87 => ⟨S300000, .i32⟩
  | 88 => ⟨S300000, .i32⟩
  | 89 => ⟨S300000, .i32⟩
  | 90 => ⟨S300000x1, .i32⟩
  | 91 => ⟨S300000x128, .f32⟩
  | 92 => ⟨S300000x128, .f32⟩
  | 93 => ⟨S1x128, .f32⟩
  | 94 => ⟨S300000x128, .f32⟩
  | 95 => ⟨S300000x128, .f32⟩
  | 96 => ⟨S300000x128, .f32⟩
  | 97 => ⟨S300000x128, .f32⟩
  | 98 => ⟨S_, .f32⟩
  | 99 => ⟨S100000x128, .f32⟩
  | 100 => ⟨S300000x1, .i32⟩
  | 101 => ⟨S100000x128, .f32⟩
  | 102 => ⟨S100000x128, .f32⟩
  | 103 => ⟨S50000x128, .f32⟩
  | 104 => ⟨S_, .f32⟩
  | 105 => ⟨S100000x128, .f32⟩
  | 106 => ⟨S100000x128, .i1⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000, .f32⟩
  | 114 => ⟨S100000x1, .f32⟩
  | 115 => ⟨S100000x1, .f32⟩
  | 116 => ⟨S_, .f32⟩
  | 117 => ⟨S100000x1, .f32⟩
  | 118 => ⟨S100000x1, .f32⟩
  | 119 => ⟨S100000x128, .f32⟩
  | 120 => ⟨S100000x128, .f32⟩
  | 121 => ⟨S_, .f32⟩
  | 122 => ⟨S50000x128, .f32⟩
  | 123 => ⟨S50000x128, .i1⟩
  | 124 => ⟨S_, .f32⟩
  | 125 => ⟨S50000x128, .f32⟩
  | 126 => ⟨S50000x128, .f32⟩
  | 127 => ⟨S50000x128, .f32⟩
  | _ => ⟨S100000x128, .f32⟩

abbrev hbmTy0_1 (i : Nat) : BufTy := match i % 128 with
  | 0 => ⟨S50000x128, .f32⟩
  | 1 => ⟨S_, .f32⟩
  | 2 => ⟨S50000, .f32⟩
  | 3 => ⟨S50000x1, .f32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_16 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S1x128_S300000x128_0_1 : S1x128.BroadcastsInDim S300000x128 (![0, 1] : Fin 2 → Fin S300000x128.rank)
  bcast_S300000x1_S300000x128_0_1 : S300000x1.BroadcastsInDim S300000x128 (![0, 1] : Fin 2 → Fin S300000x128.rank)
  bcast_S_S50000x128 : S_.BroadcastsInDim S50000x128 (![] : Fin 0 → Fin S50000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S300000x1_S300000x128_1_0_n_n_0_1_1128_wf : GatherDims.WF S100000x128 S300000x1 S300000x128 [1] [0] [] [0] [] 1 ![1, 128]
  gather_S50000x128_S300000x1_S300000x128_1_0_n_n_0_1_1128_wf : GatherDims.WF S50000x128 S300000x1 S300000x128 [1] [0] [] [0] [] 1 ![1, 128]
  scatter_S50000x128_S300000x1_S300000x128_1_0_0_1_wf : ScatterDims.WF S50000x128 S300000x1 S300000x128 [1] [0] [0] 1
  scatter_S100000x128_S300000x1_S300000x128_1_0_0_1_wf : ScatterDims.WF S100000x128 S300000x1 S300000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf

class Facts : Prop extends Facts₀ where

variable [Facts]
-- ==== Proof.KernelRun.lean ====
/-
  The kernel program's run with its two results named.

  The program is four pallas regions among two stretches of host operations. Its frame module folds the buffer contents
  through the six segments: `W0` at launch, `W1` after the two weight transposes, `W2`, `W3` after the two projection
  regions, `W4` after the gathers, messages and segment sums, `W5`, `W6` after the two readout regions. Every weakly
  fair execution ends with every unscoped buffer at `W6`; read at the two result buffers and at the twelve arguments
  this is the statement below. What `W6` holds at the results is the business of the other modules.
-/
import proofs.«152876_j12936441495793_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the two results at the last
    boundary's contents `W6` and the twelve arguments as launched. -/
theorem run_results : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.Fold.lean ====
/-
  What each buffer holds at the boundaries of the kernel program's six segments.

  The contents are a fold through the program: `W1` is the launch memory after the two weight transposes; a region
  leaves each of its arrays at what its write-backs made of it (an input array as it was) and every other buffer
  alone (`W2`, `W3`, `W5`, `W6`); `W4` is `W3` after the middle stretch of host operations — the index wrap-arounds,
  the four row gathers, the two message products and the two segment sums. This module walks the fold: every buffer a
  later segment reads is traced back either to the launch memory, or to a projection region's output array, or to the
  middle stretch's term over those.
-/
import proofs.«152876_j12936441495793_2_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.ShloMosaic.Tactic Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-- A buffer that no operation of the transposes writes keeps its contents across it. -/
local macro "transposes_keeps" : tactic => `(tactic|
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- A buffer that no operation of the middle writes keeps its contents across it. -/
local macro "middle_keeps" : tactic => `(tactic|
  exact StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The middle stretch as two functions of what it reads -/

/-- jnp's index wrap-around, then the ids as a column: `select (x < 0) (x + N) x` broadcast to `[E, 1]`. -/
def wrapColumn (N : BitVec 32) (x : (⟨S300000, .i32⟩ : BufTy).Contents (Elt F)) : (⟨S300000x1, .i32⟩ : BufTy).Contents (Elt F) :=
  broadcastInDim S300000x1 ![0] bcast_S300000_S300000x1_0
    (select (cmpi .slt x (broadcastInDim S300000 ![] bcast_S_S300000 (constantI S_ 32 0#32)))
      (addi x (broadcastInDim S300000 ![] bcast_S_S300000 (constantI S_ 32 N))) x)

/-- The bias `b₂` as an `[E, 128]` array, one copy per edge. -/
def biasRows (b : (⟨S128, .f32⟩ : BufTy).Contents (Elt F)) : (⟨S300000x128, .f32⟩ : BufTy).Contents (Elt F) :=
  broadcastInDim S300000x128 ![0, 1] bcast_S1x128_S300000x128_0_1 (broadcastInDim S1x128 ![1] bcast_S128_S1x128_1 b)

/-- What the users receive: per edge `norm · (S_item[src] + Q_user[dst] + b₂)`, summed into the destination user's row. -/
def userAggregate (sItem : (⟨S50000x128, .f32⟩ : BufTy).Contents (Elt F)) (qUser : (⟨S100000x128, .f32⟩ : BufTy).Contents (Elt F))
    (b : (⟨S128, .f32⟩ : BufTy).Contents (Elt F)) (src dst : (⟨S300000, .i32⟩ : BufTy).Contents (Elt F))
    (norm : (⟨S300000x1, .f32⟩ : BufTy).Contents (Elt F)) : (⟨S100000x128, .f32⟩ : BufTy).Contents (Elt F) :=
  Host.scatterAdd scatter_S100000x128_S300000x1_S300000x128_1_0_0_1
    (broadcastInDim S100000x128 ![] bcast_S_S100000x128 (constant S_ .f32 0x00000000#32))
    (broadcastInDim S300000x1 ![0] bcast_S300000_S300000x1_0 dst)
    (mulf (broadcastInDim S300000x128 ![0, 1] bcast_S300000x1_S300000x128_0_1 norm)
      (addf (addf (Host.gather gather_S50000x128_S300000x1_S300000x128_1_0_n_n_0_1_1128 sItem (wrapColumn 50000#32 src))
          (Host.gather gather_S100000x128_S300000x1_S300000x128_1_0_n_n_0_1_1128 qUser (wrapColumn 100000#32 dst)))
        (biasRows b)))

/-- What the items receive: per edge `norm · (S_user[src] + Q_item[dst] + b₂)`, summed into the destination item's row. -/
def itemAggregate (sUser : (⟨S100000x128, .f32⟩ : BufTy).Contents (Elt F)) (qItem : (⟨S50000x128, .f32⟩ : BufTy).Contents (Elt F))
    (b : (⟨S128, .f32⟩ : BufTy).Contents (Elt F)) (src dst : (⟨S300000, .i32⟩ : BufTy).Contents (Elt F))
    (norm : (⟨S300000x1, .f32⟩ : BufTy).Contents (Elt F)) : (⟨S50000x128, .f32⟩ : BufTy).Contents (Elt F) :=
  Host.scatterAdd scatter_S50000x128_S300000x1_S300000x128_1_0_0_1
    (broadcastInDim S50000x128 ![] bcast_S_S50000x128 (constant S_ .f32 0x00000000#32))
    (broadcastInDim S300000x1 ![0] bcast_S300000_S300000x1_0 dst)
    (mulf (broadcastInDim S300000x128 ![0, 1] bcast_S300000x1_S300000x128_0_1 norm)
      (addf (addf (Host.gather gather_S100000x128_S300000x1_S300000x128_1_0_n_n_0_1_1128 sUser (wrapColumn 100000#32 src))
          (Host.gather gather_S50000x128_S300000x1_S300000x128_1_0_n_n_0_1_1128 qItem (wrapColumn 50000#32 dst)))
        (biasRows b)))

/-! ## Region 0's entry: the launch memory and the two transposed weights -/

theorem V1_arg0 : V1 m ρ c main_arg0 = m ((c : Thread nD τ).loc main_arg0) := by
  show StableHlo.after hostOps0 (W0 m ρ c) (Proc.devRef .tc main_arg0) = _
  transposes_keeps
theorem V1_arg1 : V1 m ρ c main_arg1 = m ((c : Thread nD τ).loc main_arg1) := by
  show StableHlo.after hostOps0 (W0 m ρ c) (Proc.devRef .tc main_arg1) = _
  transposes_keeps
theorem V1_arg3 : V1 m ρ c main_arg3 = m ((c : Thread nD τ).loc main_arg3) := by
  show StableHlo.after hostOps0 (W0 m ρ c) (Proc.devRef .tc main_arg3) = _
  transposes_keeps
theorem V1_w1 : V1 m ρ c main_v0 = transpose S128x128 [1, 0] (m ((c : Thread nD τ).loc main_arg2)) transposes_S128x128_S128x128_1_0 := by
  show StableHlo.after hostOps0 (W0 m ρ c) (Proc.devRef .tc main_v0) = _
  after_results <;> rfl
theorem V1_w2 : V1 m ρ c main_v1 = transpose S128x128 [1, 0] (m ((c : Thread nD τ).loc main_arg4)) transposes_S128x128_S128x128_1_0 := by
  show StableHlo.after hostOps0 (W0 m ρ c) (Proc.devRef .tc main_v1) = _
  after_results <;> rfl

/-! ## Region 1's entry: region 0 read its weights and bias through input windows and left them alone -/

theorem V2_arg1 : V2 m ρ c main_arg1 = m ((c : Thread nD τ).loc main_arg1) :=
  (W2_of_ne m ρ c main_arg1 (by decide)).trans (V1_arg1 m ρ c)
theorem V2_w1 : V2 m ρ c main_v0 = V1 m ρ c main_v0 :=
  (W2_arr m ρ c 1).trans (((dat0 (V1 m ρ) c).arrAt_in 1 rfl _).trans (A_eq0 (V1 m ρ) c 1))
theorem V2_arg3 : V2 m ρ c main_arg3 = m ((c : Thread nD τ).loc main_arg3) :=
  ((W2_arr m ρ c 2).trans (((dat0 (V1 m ρ) c).arrAt_in 2 rfl _).trans (A_eq0 (V1 m ρ) c 2))).trans (V1_arg3 m ρ c)
theorem V2_w2 : V2 m ρ c main_v1 = V1 m ρ c main_v1 :=
  (W2_arr m ρ c 3).trans (((dat0 (V1 m ρ) c).arrAt_in 3 rfl _).trans (A_eq0 (V1 m ρ) c 3))

/-! ## After the two projection regions: their six output arrays, and the arguments the middle stretch reads -/

theorem W3_user_P : W3 m ρ c (Proc.devRef .tc main_v2_0) = (dat0 (V1 m ρ) c).arrAt 4 cfg0.N :=
  (W3_of_ne m ρ c main_v2_0 (by decide)).trans (W2_arr m ρ c 4)
theorem W3_user_Q : W3 m ρ c (Proc.devRef .tc main_v2_1) = (dat0 (V1 m ρ) c).arrAt 5 cfg0.N :=
  (W3_of_ne m ρ c main_v2_1 (by decide)).trans (W2_arr m ρ c 5)
theorem W3_user_S : W3 m ρ c (Proc.devRef .tc main_v2_2) = (dat0 (V1 m ρ) c).arrAt 6 cfg0.N :=
  (W3_of_ne m ρ c main_v2_2 (by decide)).trans (W2_arr m ρ c 6)
theorem W3_item_P : W3 m ρ c (Proc.devRef .tc main_v3_0) = (dat1 (V2 m ρ) c).arrAt 4 cfg1.N := W3_arr m ρ c 4
theorem W3_item_Q : W3 m ρ c (Proc.devRef .tc main_v3_1) = (dat1 (V2 m ρ) c).arrAt 5 cfg1.N := W3_arr m ρ c 5
theorem W3_item_S : W3 m ρ c (Proc.devRef .tc main_v3_2) = (dat1 (V2 m ρ) c).arrAt 6 cfg1.N := W3_arr m ρ c 6
theorem W3_arg5 : W3 m ρ c (Proc.devRef .tc main_arg5) = m ((c : Thread nD τ).loc main_arg5) :=
  (W3_of_ne m ρ c main_arg5 (by decide)).trans ((W2_of_ne m ρ c main_arg5 (by decide)).trans (by
    show StableHlo.after hostOps0 (W0 m ρ c) (Proc.devRef .tc main_arg5) = _
    transposes_keeps))
theorem W3_arg6 : W3 m ρ c (Proc.devRef .tc main_arg6) = m ((c : Thread nD τ).loc main_arg6) :=
  (W3_of_ne m ρ c main_arg6 (by decide)).trans ((W2_of_ne m ρ c main_arg6 (by decide)).trans (by
    show StableHlo.after hostOps0 (W0 m ρ c) (Proc.devRef .tc main_arg6) = _
    transposes_keeps))
theorem W3_arg7 : W3 m ρ c (Proc.devRef .tc main_arg7) = m ((c : Thread nD τ).loc main_arg7) :=
  (W3_of_ne m ρ c main_arg7 (by decide)).trans ((W2_of_ne m ρ c main_arg7 (by decide)).trans (by
    show StableHlo.after hostOps0 (W0 m ρ c) (Proc.devRef .tc main_arg7) = _
    transposes_keeps))
theorem W3_arg8 : W3 m ρ c (Proc.devRef .tc main_arg8) = m ((c : Thread nD τ).loc main_arg8) :=
  (W3_of_ne m ρ c main_arg8 (by decide)).trans ((W2_of_ne m ρ c main_arg8 (by decide)).trans (by
    show StableHlo.after hostOps0 (W0 m ρ c) (Proc.devRef .tc main_arg8) = _
    transposes_keeps))
theorem W3_arg9 : W3 m ρ c (Proc.devRef .tc main_arg9) = m ((c : Thread nD τ).loc main_arg9) :=
  (W3_of_ne m ρ c main_arg9 (by decide)).trans ((W2_of_ne m ρ c main_arg9 (by decide)).trans (by
    show StableHlo.after hostOps0 (W0 m ρ c) (Proc.devRef .tc main_arg9) = _
    transposes_keeps))
theorem W3_arg10 : W3 m ρ c (Proc.devRef .tc main_arg10) = m ((c : Thread nD τ).loc main_arg10) :=
  (W3_of_ne m ρ c main_arg10 (by decide)).trans ((W2_of_ne m ρ c main_arg10 (by decide)).trans (by
    show StableHlo.after hostOps0 (W0 m ρ c) (Proc.devRef .tc main_arg10) = _
    transposes_keeps))
theorem W3_arg11 : W3 m ρ c (Proc.devRef .tc main_arg11) = m ((c : Thread nD τ).loc main_arg11) :=
  (W3_of_ne m ρ c main_arg11 (by decide)).trans ((W2_of_ne m ρ c main_arg11 (by decide)).trans (by
    show StableHlo.after hostOps0 (W0 m ρ c) (Proc.devRef .tc main_arg11) = _
    transposes_keeps))

/-! ## After the middle stretch -/

theorem V4_user_P : V4 m ρ c main_v2_0 = W3 m ρ c (Proc.devRef .tc main_v2_0) := by
  show StableHlo.after hostOps2 (W3 m ρ c) (Proc.devRef .tc main_v2_0) = _
  middle_keeps
theorem V4_item_P : V4 m ρ c main_v3_0 = W3 m ρ c (Proc.devRef .tc main_v3_0) := by
  show StableHlo.after hostOps2 (W3 m ρ c) (Proc.devRef .tc main_v3_0) = _
  middle_keeps
theorem V4_user_agg : V4 m ρ c main_v49 = userAggregate (W3 m ρ c (Proc.devRef .tc main_v3_2)) (W3 m ρ c (Proc.devRef .tc main_v2_1))
    (W3 m ρ c (Proc.devRef .tc main_arg5)) (W3 m ρ c (Proc.devRef .tc main_arg9)) (W3 m ρ c (Proc.devRef .tc main_arg10)) (W3 m ρ c (Proc.devRef .tc main_arg11)) := by
  show StableHlo.after hostOps2 (W3 m ρ c) (Proc.devRef .tc main_v49) = _
  after_results_simp <;> rfl
theorem V4_item_agg : V4 m ρ c main_v26 = itemAggregate (W3 m ρ c (Proc.devRef .tc main_v2_2)) (W3 m ρ c (Proc.devRef .tc main_v3_1))
    (W3 m ρ c (Proc.devRef .tc main_arg5)) (W3 m ρ c (Proc.devRef .tc main_arg6)) (W3 m ρ c (Proc.devRef .tc main_arg7)) (W3 m ρ c (Proc.devRef .tc main_arg8)) := by
  show StableHlo.after hostOps2 (W3 m ρ c) (Proc.devRef .tc main_v26) = _
  after_results_simp <;> rfl

/-! ## Region 3's entry, and the two results -/

theorem V5_item_P : V5 m ρ c main_v3_0 = V4 m ρ c main_v3_0 := W5_of_ne m ρ c main_v3_0 (by decide)
theorem V5_item_agg : V5 m ρ c main_v26 = V4 m ρ c main_v26 := W5_of_ne m ρ c main_v26 (by decide)
theorem W6_user : W6 m ρ c (Proc.devRef .tc main_v50) = (dat2 (V4 m ρ) c).arrAt 2 cfg2.N :=
  (W6_of_ne m ρ c main_v50 (by decide)).trans (W5_arr m ρ c 2)
theorem W6_item : W6 m ρ c (Proc.devRef .tc main_v51) = (dat3 (V5 m ρ) c).arrAt 2 cfg3.N := W6_arr m ρ c 2

end Cert.KernelIdeal.Fold

end
-- ==== Proof.Spec.lean ====
/-
  The mathematics of a two-type (user / item) graph convolution, index by index on the extended reals.
  Nothing here mentions a program: both the kernel's arrays and the reference's are shown to be these functions.

  * `linear x w`      : the matrix product, entry (r, c) = Σ_k x[r, k] · w[k, c];
  * `linearBias x w b`: the product plus a bias along the columns, entry (r, c) = (x · w)[r, c] + b[c];
  * `leaky h`         : the leaky rectifier with slope 0.2 (the slope kept as its 32-bit word, never evaluated):
                         h where h > 0, slope · h elsewhere;
  * `readout p a`     : the rectifier of p + a, each row divided by max(its Euclidean norm, ε) (ε kept as its word).
-/
import Idealize.ShloMosaic.PureOps.Ideal
import Idealize.ShloMosaic.Lib.ValueIdx

noncomputable section

namespace Cert.BipartiteConv

open Idealize.ShloMosaic Idealize.ShloMosaic.ValueIdx

/-- The matrix product of an `[n, 128]` matrix with a `[128, 128]` one: entry `(r, c)` is `Σ_k x[r, k] · w[k, c]`. -/
def linear {n : ℕ} (x : (⟨2, ![n, 128]⟩ : Shape).Idx → EReal) (w : (⟨2, ![128, 128]⟩ : Shape).Idx → EReal) :
    (⟨2, ![n, 128]⟩ : Shape).Idx → EReal :=
  fun i => ∑ k : Fin 128, x (ix2 (i 0) k) * w (ix2 k (i 1))

/-- The product plus a bias along the columns: entry `(r, c)` is `(x · w)[r, c] + b[c]`. -/
def linearBias {n : ℕ} (x : (⟨2, ![n, 128]⟩ : Shape).Idx → EReal) (w : (⟨2, ![128, 128]⟩ : Shape).Idx → EReal)
    (b : (⟨1, ![128]⟩ : Shape).Idx → EReal) : (⟨2, ![n, 128]⟩ : Shape).Idx → EReal :=
  fun i => linear x w i + b (ix1 (i 1))

/-- The leaky rectifier: `h` where `h > 0`, `slope · h` elsewhere, the slope being the number the word `0x3E4CCCCD` denotes. -/
def leaky (h : EReal) : EReal :=
  Scalar.select (Ideal.cmp .ogt h (Ideal.ofBits .f32 0x00000000#32)) h (Ideal.ofBits .f32 0x3E4CCCCD#32 * h)

/-- The readout of a node's two contributions `p` (its own projection) and `a` (what its neighbours sent): the leaky
    rectifier of their sum, each row divided by the larger of its Euclidean norm and `ε` (the word `0x2B8CBCCC`). -/
def readout {n : ℕ} (p a : (⟨2, ![n, 128]⟩ : Shape).Idx → EReal) : (⟨2, ![n, 128]⟩ : Shape).Idx → EReal :=
  fun i => Ideal.div (leaky (p i + a i))
    (max (Ideal.sqrt (∑ k : Fin 128, leaky (p (ix2 (i 0) k) + a (ix2 (i 0) k)) * leaky (p (ix2 (i 0) k) + a (ix2 (i 0) k))))
      (Ideal.ofBits .f32 0x2B8CBCCC#32))

end Cert.BipartiteConv

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.RefStages.lean ====
/-
  The reference program's stages as the mathematics of the graph convolution.

  Each of the reference's named arrays is shown, index by index on the extended reals, to be one of the functions of
  the specification: the two projections of each node type are a matrix product (plus a bias along the columns for the
  first), and each output is the readout of a node's own projection and of what its neighbours sent. The neighbour sums
  themselves stay opaque arrays here: only their value at an index enters. Last, a row gather commutes with an
  elementwise sum, since it reads one element of its operand, at the same place whatever the operand holds.
-/
import proofs.«152876_j12936441495793_2_alg».proof.Proof.Gen.ReferenceIdeal.Read
import proofs.«152876_j12936441495793_2_alg».proof.Proof.Spec
import proofs.«152876_j12936441495793_2_alg».proof.Proof.LibRowScatter

set_option maxRecDepth 16384

noncomputable section

namespace Cert.ReferenceIdeal.RefValue

open Idealize.ShloMosaic Idealize.ShloMosaic.ValueIdx Cert.ReferenceIdeal Cert.ReferenceIdeal.Read Cert.BipartiteConv

/-! ## The projections

A `dot_general` contracting the second axis of its left operand with the first of its right one is, at entry `(r, c)`,
`Σ_k x[r, k] · w[k, c]`; the bias, broadcast first to one row and then along the rows, is read at the entry's column. -/

/-- The users' first projection: the users times the transposed first weight, plus the first bias along the columns. -/
theorem P_user (x0 : (⟨S100000x128, .f32⟩ : BufTy).Contents (Elt Ideal)) (x2 : (⟨S128x128, .f32⟩ : BufTy).Contents (Elt Ideal)) (x3 : (⟨S128, .f32⟩ : BufTy).Contents (Elt Ideal)) :
    val_main_v4 (F := Ideal) x0 x2 x3 = linearBias (n := 100000) x0 (val_main_v0 x2) x3 := by
  funext i
  have el : ∀ k : Fin 128, lidx_main_v1 i k = ix2 (i 0) k := fun k => funext fun a => Fin.ext (by match a with | ⟨0, _⟩ => rfl | ⟨1, _⟩ => rfl)
  have er : ∀ k : Fin 128, ridx_main_v1 i k = ix2 k (i 1) := fun k => funext fun a => Fin.ext (by match a with | ⟨0, _⟩ => rfl | ⟨1, _⟩ => rfl)
  have eb : idx_main_v2 (idx_main_v3 i) = ix1 (i 1) := funext fun a => Fin.ext (by match a with | ⟨0, _⟩ => rfl)
  rw [val_main_v4_apply, val_main_v1_apply, val_main_v3_apply, val_main_v2_apply]
  simp only [el, er, eb, Ideal.addf_def]
  unfold linearBias linear
  rfl

/-- The items' first projection: the items times the transposed first weight, plus the first bias along the columns. -/
theorem P_item (x1 : (⟨S50000x128, .f32⟩ : BufTy).Contents (Elt Ideal)) (x2 : (⟨S128x128, .f32⟩ : BufTy).Contents (Elt Ideal)) (x3 : (⟨S128, .f32⟩ : BufTy).Contents (Elt Ideal)) :
    val_main_v9 (F := Ideal) x1 x2 x3 = linearBias (n := 50000) x1 (val_main_v5 x2) x3 := by
  funext i
  have el : ∀ k : Fin 128, lidx_main_v6 i k = ix2 (i 0) k := fun k => funext fun a => Fin.ext (by match a with | ⟨0, _⟩ => rfl | ⟨1, _⟩ => rfl)
  have er : ∀ k : Fin 128, ridx_main_v6 i k = ix2 k (i 1) := fun k => funext fun a => Fin.ext (by match a with | ⟨0, _⟩ => rfl | ⟨1, _⟩ => rfl)
  have eb : idx_main_v7 (idx_main_v8 i) = ix1 (i 1) := funext fun a => Fin.ext (by match a with | ⟨0, _⟩ => rfl)
  rw [val_main_v9_apply, val_main_v6_apply, val_main_v8_apply, val_main_v7_apply]
  simp only [el, er, eb, Ideal.addf_def]
  unfold linearBias linear
  rfl

/-- The users' second projection: the users times the transposed second weight. -/
theorem Q_user (x0 : (⟨S100000x128, .f32⟩ : BufTy).Contents (Elt Ideal)) (x4 : (⟨S128x128, .f32⟩ : BufTy).Contents (Elt Ideal)) :
    val_main_v11 (F := Ideal) x0 x4 = linear (n := 100000) x0 (val_main_v10 x4) := by
  funext i
  have el : ∀ k : Fin 128, lidx_main_v11 i k = ix2 (i 0) k := fun k => funext fun a => Fin.ext (by match a with | ⟨0, _⟩ => rfl | ⟨1, _⟩ => rfl)
  have er : ∀ k : Fin 128, ridx_main_v11 i k = ix2 k (i 1) := fun k => funext fun a => Fin.ext (by match a with | ⟨0, _⟩ => rfl | ⟨1, _⟩ => rfl)
  rw [val_main_v11_apply]
  simp only [el, er]
  unfold linear
  rfl

/-- The items' second projection: the items times the transposed second weight. -/
theorem Q_item (x1 : (⟨S50000x128, .f32⟩ : BufTy).Contents (Elt Ideal)) (x4 : (⟨S128x128, .f32⟩ : BufTy).Contents (Elt Ideal)) :
    val_main_v13 (F := Ideal) x1 x4 = linear (n := 50000) x1 (val_main_v12 x4) := by
  funext i
  have el : ∀ k : Fin 128, lidx_main_v13 i k = ix2 (i 0) k := fun k => funext fun a => Fin.ext (by match a with | ⟨0, _⟩ => rfl | ⟨1, _⟩ => rfl)
  have er : ∀ k : Fin 128, ridx_main_v13 i k = ix2 k (i 1) := fun k => funext fun a => Fin.ext (by match a with | ⟨0, _⟩ => rfl | ⟨1, _⟩ => rfl)
  rw [val_main_v13_apply]
  simp only [el, er]
  unfold linear
  rfl

/-! ## The outputs

The select of `h > 0` between `h` and `slope · h` is the leaky rectifier of `h = p + a`; the sum of squares along a row,
started from zero, is the row's squared norm; its root, bounded below by `ε` and broadcast back along the row, divides. -/

/-- The users' rectified sum at an index: the leaky rectifier of the node's own projection plus what its neighbours sent. -/
theorem act_user (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x9 x10 : (⟨S300000, .i32⟩ : BufTy).Contents (Elt Ideal))
    (x11 : (⟨S300000x1, .f32⟩ : BufTy).Contents (Elt Ideal)) (j : S100000x128.Idx) :
    val_main_v82 (F := Ideal) x0 x1 x2 x3 x4 x5 x9 x10 x11 j
      = leaky (val_main_v4 (F := Ideal) x0 x2 x3 j + val_main_v75 (F := Ideal) x0 x1 x2 x3 x4 x5 x9 x10 x11 j) := by
  rw [val_main_v82_apply, val_main_v79_apply, val_main_v81_apply, val_main_v76_apply,
    val_main_v78_apply, val_main_v80_apply, val_main_cst_12_apply, val_main_cst_13_apply]
  unfold leaky
  rfl

/-- The users' output is the readout of their first projection and of their neighbours' sum: the rectified sum divided, row
    by row, by the larger of the row's Euclidean norm and `ε`. -/
theorem out_user (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x9 x10 : (⟨S300000, .i32⟩ : BufTy).Contents (Elt Ideal))
    (x11 : (⟨S300000x1, .f32⟩ : BufTy).Contents (Elt Ideal)) :
    val_main_v90 (F := Ideal) x0 x1 x2 x3 x4 x5 x9 x10 x11
      = readout (n := 100000) (val_main_v4 x0 x2 x3) (val_main_v75 x0 x1 x2 x3 x4 x5 x9 x10 x11) := by
  funext i
  have hk : ∀ k : Fin 128, idx_main_v84 (idx_main_v85 (idx_main_v89 i)) k = ix2 (i 0) k := fun k => funext fun a => Fin.ext (by match a with | ⟨0, _⟩ => rfl | ⟨1, _⟩ => rfl)
  rw [val_main_v90_apply, val_main_v89_apply, val_main_v88_apply, val_main_v86_apply, val_main_v85_apply,
    val_main_v84_apply, val_main_v87_apply, val_main_cst_15_apply, val_main_cst_14_apply]
  simp only [val_main_v83_apply, act_user, hk, Ideal.hostDivf_def, Ideal.hostUnary_sqrt_def, Ideal.maximumf_def,
    Ideal.mulf_def, Ideal.ofBits_def, Ideal.ofBits_zero_f32, zero_add]
  unfold readout
  rfl

/-- The items' rectified sum at an index: the leaky rectifier of the node's own projection plus what its neighbours sent. -/
theorem act_item (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 x7 : (⟨S300000, .i32⟩ : BufTy).Contents (Elt Ideal))
    (x8 : (⟨S300000x1, .f32⟩ : BufTy).Contents (Elt Ideal)) (j : S50000x128.Idx) :
    val_main_v95 (F := Ideal) x0 x1 x2 x3 x4 x5 x6 x7 x8 j
      = leaky (val_main_v9 (F := Ideal) x1 x2 x3 j + val_main_v44 (F := Ideal) x0 x1 x2 x3 x4 x5 x6 x7 x8 j) := by
  rw [val_main_v95_apply, val_main_v92_apply, val_main_v94_apply, val_main_v77_apply,
    val_main_v91_apply, val_main_v93_apply, val_main_cst_16_apply, val_main_cst_17_apply]
  unfold leaky
  rfl

/-- The items' output is the readout of their first projection and of their neighbours' sum: the rectified sum divided, row
    by row, by the larger of the row's Euclidean norm and `ε`. -/
theorem out_item (x0 : (⟨S100000x128, .f32⟩ : BufTy).Contents (Elt Ideal)) (x1 : (⟨S50000x128, .f32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 x7 : (⟨S300000, .i32⟩ : BufTy).Contents (Elt Ideal))
    (x8 : (⟨S300000x1, .f32⟩ : BufTy).Contents (Elt Ideal)) :
    val_main_v103 (F := Ideal) x0 x1 x2 x3 x4 x5 x6 x7 x8
      = readout (n := 50000) (val_main_v9 x1 x2 x3) (val_main_v44 x0 x1 x2 x3 x4 x5 x6 x7 x8) := by
  funext i
  have hk : ∀ k : Fin 128, idx_main_v97 (idx_main_v98 (idx_main_v102 i)) k = ix2 (i 0) k := fun k => funext fun a => Fin.ext (by match a with | ⟨0, _⟩ => rfl | ⟨1, _⟩ => rfl)
  rw [val_main_v103_apply, val_main_v102_apply, val_main_v101_apply, val_main_v99_apply, val_main_v98_apply,
    val_main_v97_apply, val_main_v100_apply, val_main_cst_19_apply, val_main_cst_18_apply]
  simp only [val_main_v96_apply, act_item, hk, Ideal.hostDivf_def, Ideal.hostUnary_sqrt_def, Ideal.maximumf_def,
    Ideal.mulf_def, Ideal.ofBits_def, Ideal.ofBits_zero_f32, zero_add]
  unfold readout
  rfl

/-! ## A row gather commutes with an elementwise sum -/

/-- A row gather of the users' rows commutes with an elementwise sum: entry `(e, c)` of the result is entry `(r, c)` of the
    operand, `r` the clamped index of edge `e`, whatever the operand holds. -/
theorem gather_add_user (A B : (⟨S100000x128, .f32⟩ : BufTy).Contents (Elt Ideal)) (I : (⟨S300000x1, .i32⟩ : BufTy).Contents (Elt Ideal)) :
    Host.gather gather_S100000x128_S300000x1_S300000x128_1_0_n_n_0_1_1128 (fun i => A i + B i) I
      = addf (F := Ideal) (φ := .f32) (Host.gather gather_S100000x128_S300000x1_S300000x128_1_0_n_n_0_1_1128 A I) (Host.gather gather_S100000x128_S300000x1_S300000x128_1_0_n_n_0_1_1128 B I) := by
  funext j
  obtain ⟨e, c, rfl⟩ : ∃ (e : Fin 300000) (c : Fin 128), j = ix2 e c := ⟨j 0, j 1, eq_ix2 j⟩
  have h : ∀ X : (⟨S100000x128, .f32⟩ : BufTy).Contents (Elt Ideal),
      Host.gather gather_S100000x128_S300000x1_S300000x128_1_0_n_n_0_1_1128 X I (ix2 e c)
        = X (ix2 (⟨min (I (ix2 e (0 : Fin 1))).toInt.toNat (100000 - 1), by omega⟩ : Fin 100000) c) := fun X =>
    RowScatter.rowGather_apply (N := 100000) (E := 300000) (C := 128) (by decide)
      Facts₀.gather_S100000x128_S300000x1_S300000x128_1_0_n_n_0_1_1128_wf X I e c
  rw [addf_apply, h, h, h]

/-- A row gather of the items' rows commutes with an elementwise sum: entry `(e, c)` of the result is entry `(r, c)` of the
    operand, `r` the clamped index of edge `e`, whatever the operand holds. -/
theorem gather_add_item (A B : (⟨S50000x128, .f32⟩ : BufTy).Contents (Elt Ideal)) (I : (⟨S300000x1, .i32⟩ : BufTy).Contents (Elt Ideal)) :
    Host.gather gather_S50000x128_S300000x1_S300000x128_1_0_n_n_0_1_1128 (fun i => A i + B i) I
      = addf (F := Ideal) (φ := .f32) (Host.gather gather_S50000x128_S300000x1_S300000x128_1_0_n_n_0_1_1128 A I) (Host.gather gather_S50000x128_S300000x1_S300000x128_1_0_n_n_0_1_1128 B I) := by
  funext j
  obtain ⟨e, c, rfl⟩ : ∃ (e : Fin 300000) (c : Fin 128), j = ix2 e c := ⟨j 0, j 1, eq_ix2 j⟩
  have h : ∀ X : (⟨S50000x128, .f32⟩ : BufTy).Contents (Elt Ideal),
      Host.gather gather_S50000x128_S300000x1_S300000x128_1_0_n_n_0_1_1128 X I (ix2 e c)
        = X (ix2 (⟨min (I (ix2 e (0 : Fin 1))).toInt.toNat (50000 - 1), by omega⟩ : Fin 50000) c) := fun X =>
    RowScatter.rowGather_apply (N := 50000) (E := 300000) (C := 128) (by decide)
      Facts₀.gather_S50000x128_S300000x1_S300000x128_1_0_n_n_0_1_1128_wf X I e c
  rw [addf_apply, h, h, h]

end Cert.ReferenceIdeal.RefValue

end
-- ==== Proof.Messages.lean ====
/-
  The messages a node type receives, kernel against reference.

  Per node type a projection gives P = x·W₁ᵀ + b₁ and Q = x·W₂ᵀ. The kernel program also stores S = P + Q and, in the
  middle stretch, gathers ONE row of S per source endpoint; the reference gathers a row of P and a row of Q there and
  adds them. A row gather reads a single row of its operand, so it commutes with an elementwise sum:
  (P + Q)[src] = P[src] + Q[src]. That is the only law used. The destination endpoint's gather, the bias b₂, the edge
  norm and the segment sum are the same operations on the same operands on both sides, so once the gathered rows agree
  the rest is one and the same term, and the segment sum is never opened.
-/
import proofs.«152876_j12936441495793_2_alg».proof.Proof.Fold
import proofs.«152876_j12936441495793_2_alg».proof.Proof.Spec
import proofs.«152876_j12936441495793_2_alg».proof.Proof.RefStages

set_option maxRecDepth 16384

noncomputable section

namespace Cert.Proof.Messages

open Idealize.ShloMosaic Idealize.ShloMosaic.ValueIdx
open Cert.ReferenceIdeal Cert.ReferenceIdeal.Read Cert.ReferenceIdeal.RefValue Cert.BipartiteConv

/-- What the users receive. The kernel gathers the items' `S = P + Q` at the source ids; the reference gathers `P` and
    `Q` there and adds. Equal by the gather law; the destination's gather, the bias, the norm and the segment sum are the
    same operations on both sides. -/
theorem user_agg_eq (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x9 x10 : (⟨S300000, .i32⟩ : BufTy).Contents (Elt Ideal)) (x11 : (⟨S300000x1, .f32⟩ : BufTy).Contents (Elt Ideal)) :
    Cert.KernelIdeal.Fold.userAggregate (F := Ideal)
        (fun i => linearBias (n := 50000) x1 (val_main_v5 x2) x3 i + linear (n := 50000) x1 (val_main_v12 x4) i)
        (linear (n := 100000) x0 (val_main_v10 x4)) x5 x9 x10 x11
      = val_main_v75 (F := Ideal) x0 x1 x2 x3 x4 x5 x9 x10 x11 := by
  unfold val_main_v75 val_main_v72 val_main_v70 val_main_v67 val_main_v59 val_main_v51 val_main_v58 val_main_v66
  rw [P_item, Q_item, Q_user]
  unfold Cert.KernelIdeal.Fold.userAggregate
  rw [show Cert.KernelIdeal.gather_S50000x128_S300000x1_S300000x128_1_0_n_n_0_1_1128 = gather_S50000x128_S300000x1_S300000x128_1_0_n_n_0_1_1128 from rfl]
  rw [gather_add_item]
  rfl

/-- What the items receive: the same with the two node types exchanged. -/
theorem item_agg_eq (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 x7 : (⟨S300000, .i32⟩ : BufTy).Contents (Elt Ideal)) (x8 : (⟨S300000x1, .f32⟩ : BufTy).Contents (Elt Ideal)) :
    Cert.KernelIdeal.Fold.itemAggregate (F := Ideal)
        (fun i => linearBias (n := 100000) x0 (val_main_v0 x2) x3 i + linear (n := 100000) x0 (val_main_v10 x4) i)
        (linear (n := 50000) x1 (val_main_v12 x4)) x5 x6 x7 x8
      = val_main_v44 (F := Ideal) x0 x1 x2 x3 x4 x5 x6 x7 x8 := by
  unfold val_main_v44 val_main_v41 val_main_v39 val_main_v36 val_main_v28 val_main_v20 val_main_v27 val_main_v35
  rw [P_user, Q_user, Q_item]
  unfold Cert.KernelIdeal.Fold.itemAggregate
  rw [show Cert.KernelIdeal.gather_S100000x128_S300000x1_S300000x128_1_0_n_n_0_1_1128 = gather_S100000x128_S300000x1_S300000x128_1_0_n_n_0_1_1128 from rfl]
  rw [gather_add_user]
  rfl

end Cert.Proof.Messages

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.ProjectArrays.lean ====
/-
  The two projection regions of the kernel, read as whole arrays.

  Each region multiplies its node features (users: 100000 rows; items: 50000 rows) by the two weight matrices,
  adds the bias to the first product, and writes three arrays: the biased product P, the product Q, and their
  sum S. The region works on blocks of 5000 rows; here each of the three arrays after the region is shown to be
  the specification's function of the arrays the region found at its entry:

    P = linearBias x w1 b,   Q = linear x w2,   S = P + Q   (entry by entry).

  First the body's three stored values at an entry of a block, as sums over the inner coordinate; then, per
  region, each input block as a part of its array, what a grid point writes back as a block of the whole-array
  function, the cover of the array by the points' blocks (row r is in the block of point r / 5000), and the
  arrays after the last point.
-/
import proofs.«152876_j12936441495793_2_alg».proof.Proof.Gen.KernelIdeal.Frame
import proofs.«152876_j12936441495793_2_alg».proof.Proof.Spec
import proofs.«152876_j12936441495793_2_alg».proof.Proof.LibMatmulSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.ProjectValue

open Idealize.ShloMosaic Idealize.ShloMosaic.TcCoe Idealize.SL.Sem Cert.KernelIdeal Cert.KernelIdeal.Gen Cert.BipartiteConv
open Idealize.ShloMosaic.ValueIdx
open Idealize.ShloMosaic.Pipeline (Dat)

/-! ## The body's three stored values at an entry

The body multiplies its block of node features by the two weight matrices (each product accumulated into
zero, the change of element format being the identity on extended reals), adds the bias along the columns to
the first product, and stores the first result, the second product, and their sum. -/

/-! The contraction record of the two products: the left operand's row comes from the output's row and its
    column from the contraction index; the right operand's row from the contraction index and its column from
    the output's column. -/

theorem dot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem dot_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem dot_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem dot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of the block with a weight matrix, at row p and column q: the sum over the inner coordinate. -/
theorem product_apply (x : Vec Ideal S5000x128 .f32) (w : Vec Ideal S128x128 .f32) (p : Fin 5000) (q : Fin 128) :
    k0_pay3 x w (ix2 p q) = ∑ k : Fin 128, x (ix2 p k) * w (ix2 k q) := by
  unfold k0_pay3 k0_pay1
  refine (Cert.GraphConv.matmul_zero_sum dot_S5000x128_S128x128_S5000x128_1_0_0_1_n_n none rfl rfl dot_lhs0 dot_lhs1 dot_rhs0 dot_rhs1 _ _ (ix2 p q)).trans ?_
  refine Finset.sum_congr rfl fun k _ => ?_
  rw [shapeCast_self]
  rfl

/-- The bias, viewed as one row and repeated down the block, at row p and column q: the bias at q. -/
theorem bias_rows_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) (fun a => ?_)).trans ?_
  · match a with
    | ⟨0, _⟩ => show (0 : ℕ) = if (1 : ℕ) = 1 then 0 else _; rw [if_pos rfl]
    | ⟨1, _⟩ => show q.val = if (128 : ℕ) = 1 then 0 else q.val; rw [if_neg (by decide)]
  · refine (shapeCast_addUnit_apply ![128] b shapeCasts_S128_S1x128 (ix2 (0 : Fin 1) q)).trans ?_
    exact congrArg b (funext fun a => match a with | ⟨0, _⟩ => rfl)

/-- The first stored value at row p and column q: the product with the first weight matrix plus the bias at q. -/
theorem biased_product_apply (x : Vec Ideal S5000x128 .f32) (w : Vec Ideal S128x128 .f32) (b : Vec Ideal S128 .f32)
    (p : Fin 5000) (q : Fin 128) :
    k0_pay2 x w b (ix2 p q) = (∑ k : Fin 128, x (ix2 p k) * w (ix2 k q)) + b (ix1 q) := by
  unfold k0_pay2 k0_pay1
  refine (addf_apply _ _ _).trans (congrArg₂ (· + ·) ?_ (bias_rows_apply b p q))
  refine (Cert.GraphConv.matmul_zero_sum dot_S5000x128_S128x128_S5000x128_1_0_0_1_n_n none rfl rfl dot_lhs0 dot_lhs1 dot_rhs0 dot_rhs1 _ _ (ix2 p q)).trans ?_
  refine Finset.sum_congr rfl fun k _ => ?_
  rw [shapeCast_self]
  rfl

/-- The third stored value: the sum of the first two. -/
theorem sum_apply (x : Vec Ideal S5000x128 .f32) (w1 w2 : Vec Ideal S128x128 .f32) (b : Vec Ideal S128 .f32)
    (p : Fin 5000) (q : Fin 128) :
    k0_pay4 x w1 w2 b (ix2 p q)
      = ((∑ k : Fin 128, x (ix2 p k) * w1 (ix2 k q)) + b (ix1 q)) + ∑ k : Fin 128, x (ix2 p k) * w2 (ix2 k q) := by
  unfold k0_pay4
  exact (addf_apply _ _ _).trans (congrArg₂ (· + ·) (biased_product_apply x w1 b p q) (product_apply x w2 p q))

/-! ## A block entry against the whole-array functions

A block of 5000 rows sits inside an array of n rows; when row p of the block is row (i 0) of the array
and q is the column of i, the body's stored values at (p, q) are the specification's functions of the
whole arrays at i. -/

section Block
variable {n : ℕ}

theorem biased_product_at (X : Vec Ideal S5000x128 .f32) (x : (⟨2, ![n, 128]⟩ : Shape).Idx → EReal)
    (w : Vec Ideal S128x128 .f32) (b : Vec Ideal S128 .f32) (p : Fin 5000) (q : Fin 128) (i : (⟨2, ![n, 128]⟩ : Shape).Idx)
    (hX : ∀ k : Fin 128, X (ix2 p k) = x (ix2 (i 0) k)) (hq : (i 1).val = q.val) :
    k0_pay2 X w b (ix2 p q) = linearBias x w b i := by
  have e1 : q = i 1 := Fin.ext hq.symm
  refine (biased_product_apply X w b p q).trans ?_
  show _ = (∑ k : Fin 128, x (ix2 (i 0) k) * w (ix2 k (i 1))) + b (ix1 (i 1))
  refine congrArg₂ (· + ·) (Finset.sum_congr rfl fun k _ => ?_) ?_
  · exact congrArg₂ (· * ·) (hX k) (congrArg (fun z : Fin 128 => w (ix2 k z)) e1)
  · exact congrArg (fun z : Fin 128 => b (ix1 z)) e1

theorem product_at (X : Vec Ideal S5000x128 .f32) (x : (⟨2, ![n, 128]⟩ : Shape).Idx → EReal)
    (w : Vec Ideal S128x128 .f32) (p : Fin 5000) (q : Fin 128) (i : (⟨2, ![n, 128]⟩ : Shape).Idx)
    (hX : ∀ k : Fin 128, X (ix2 p k) = x (ix2 (i 0) k)) (hq : (i 1).val = q.val) :
    k0_pay3 X w (ix2 p q) = linear x w i := by
  have e1 : q = i 1 := Fin.ext hq.symm
  refine (product_apply X w p q).trans ?_
  show _ = ∑ k : Fin 128, x (ix2 (i 0) k) * w (ix2 k (i 1))
  refine Finset.sum_congr rfl fun k _ => ?_
  exact congrArg₂ (· * ·) (hX k) (congrArg (fun z : Fin 128 => w (ix2 k z)) e1)

theorem sum_at (X : Vec Ideal S5000x128 .f32) (x : (⟨2, ![n, 128]⟩ : Shape).Idx → EReal)
    (w1 w2 : Vec Ideal S128x128 .f32) (b : Vec Ideal S128 .f32) (p : Fin 5000) (q : Fin 128) (i : (⟨2, ![n, 128]⟩ : Shape).Idx)
    (hX : ∀ k : Fin 128, X (ix2 p k) = x (ix2 (i 0) k)) (hq : (i 1).val = q.val) :
    k0_pay4 X w1 w2 b (ix2 p q) = linearBias x w1 b i + linear x w2 i := by
  unfold k0_pay4
  exact (addf_apply _ _ _).trans (congrArg₂ (· + ·) (biased_product_at X x w1 b p q i hX hq) (product_at X x w2 p q i hX hq))

end Block

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: the user projections, from blocks to arrays

The region's grid has 20 points; point t reads rows 5000 t … 5000 t + 4999 of the node features, the two
weight matrices and the bias whole, and writes the same rows of the three results. -/

/-- The index maps, decided over the grid: the row-blocked windows are at block (t, 0), the whole-array windows
    at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block of node features at point t is rows 5000 t … 5000 t + 4999 of the array. -/
theorem features0_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The first weight matrix's block is the whole matrix. -/
theorem weight1_0_eq (c : Dev nD) (t : Fin cfg0.N) :
    (iblk0 V c 1 t : Vec Ideal S128x128 .f32) = (V c main_v0 : S128x128.Idx → EReal) := by
  obtain ⟨-, -, e0, e1, -⟩ := idx_facts0 t
  unfold iblk0
  funext y
  rw [View.read_apply]
  show V c main_v0 _ = V c main_v0 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block is the whole bias. -/
theorem bias0_eq (c : Dev nD) (t : Fin cfg0.N) :
    (iblk0 V c 2 t : Vec Ideal S128 .f32) = (V c main_arg3 : S128.Idx → EReal) := by
  obtain ⟨-, -, -, -, e0, -⟩ := idx_facts0 t
  unfold iblk0
  funext y
  rw [View.read_apply]
  show V c main_arg3 _ = V c main_arg3 _
  congr 1
  funext a
  apply Fin.ext
  match a with
  | ⟨0, _⟩ => show win0_2.index t (0 : Fin 1) * 128 + 1 * (y 0).val = (y 0).val; rw [e0]; omega

/-- The second weight matrix's block is the whole matrix. -/
theorem weight2_0_eq (c : Dev nD) (t : Fin cfg0.N) :
    (iblk0 V c 3 t : Vec Ideal S128x128 .f32) = (V c main_v1 : S128x128.Idx → EReal) := by
  obtain ⟨-, -, -, -, -, e0, e1, -⟩ := idx_facts0 t
  unfold iblk0
  funext y
  rw [View.read_apply]
  show V c main_v1 _ = V c main_v1 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- What point t writes back to the first result is block t of the biased product of the whole arrays. -/
theorem flushed0_4 (c : Dev nD) (t : Fin cfg0.N) :
    (dat0 (F := Ideal) V c).flushed 4 t = ((cfg0.win 4).blk t).view.read (Elt Ideal)
      (linearBias (n := 100000) (V c main_arg0) (V c main_v0) (V c main_arg3)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2, View.ld_unit_zero (S := S128) hz1]
  rw [weight1_0_eq, bias0_eq]
  obtain ⟨-, -, -, -, -, -, -, e0, e1, -⟩ := idx_facts0 t
  funext y
  obtain ⟨p, q, rfl⟩ : ∃ (p : Fin 5000) (q : Fin 128), y = ix2 p q := ⟨y 0, y 1, eq_ix2 y⟩
  refine biased_product_at (iblk0 V c 0 t) (V c main_arg0) (V c main_v0) (V c main_arg3) p q
    (((cfg0.win 4).blk t).view.emb (ix2 p q)) (fun k => features0_apply V c t p k _ ?_) ?_
  · show win0_4.index t (0 : Fin 2) * 5000 + 1 * p.val = 5000 * t.val + p.val; rw [e0]; omega
  · show win0_4.index t (1 : Fin 2) * 128 + 1 * q.val = q.val; rw [e1]; omega

/-- What point t writes back to the second result is block t of the product of the whole arrays. -/
theorem flushed0_5 (c : Dev nD) (t : Fin cfg0.N) :
    (dat0 (F := Ideal) V c).flushed 5 t = ((cfg0.win 5).blk t).view.read (Elt Ideal)
      (linear (n := 100000) (V c main_arg0) (V c main_v1)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2]
  rw [weight2_0_eq]
  obtain ⟨-, -, -, -, -, -, -, -, -, e0, e1, -⟩ := idx_facts0 t
  funext y
  obtain ⟨p, q, rfl⟩ : ∃ (p : Fin 5000) (q : Fin 128), y = ix2 p q := ⟨y 0, y 1, eq_ix2 y⟩
  refine product_at (iblk0 V c 0 t) (V c main_arg0) (V c main_v1) p q
    (((cfg0.win 5).blk t).view.emb (ix2 p q)) (fun k => features0_apply V c t p k _ ?_) ?_
  · show win0_5.index t (0 : Fin 2) * 5000 + 1 * p.val = 5000 * t.val + p.val; rw [e0]; omega
  · show win0_5.index t (1 : Fin 2) * 128 + 1 * q.val = q.val; rw [e1]; omega

/-- What point t writes back to the third result is block t of the sum of the two. -/
theorem flushed0_6 (c : Dev nD) (t : Fin cfg0.N) :
    (dat0 (F := Ideal) V c).flushed 6 t = ((cfg0.win 6).blk t).view.read (Elt Ideal)
      (fun i => linearBias (n := 100000) (V c main_arg0) (V c main_v0) (V c main_arg3) i
        + linear (n := 100000) (V c main_arg0) (V c main_v1) i) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  rw [weight1_0_eq, weight2_0_eq, bias0_eq]
  obtain ⟨-, -, -, -, -, -, -, -, -, -, -, e0, e1⟩ := idx_facts0 t
  funext y
  obtain ⟨p, q, rfl⟩ : ∃ (p : Fin 5000) (q : Fin 128), y = ix2 p q := ⟨y 0, y 1, eq_ix2 y⟩
  refine sum_at (iblk0 V c 0 t) (V c main_arg0) (V c main_v0) (V c main_v1) (V c main_arg3) p q
    (((cfg0.win 6).blk t).view.emb (ix2 p q)) (fun k => features0_apply V c t p k _ ?_) ?_
  · show win0_6.index t (0 : Fin 2) * 5000 + 1 * p.val = 5000 * t.val + p.val; rw [e0]; omega
  · show win0_6.index t (1 : Fin 2) * 128 + 1 * q.val = q.val; rw [e1]; omega

/-- An index of a result array is in point t's block iff each coordinate is in the block's range on its axis. -/
theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2_0).slice (win0_4.rect t)).set ↔ _
  rw [View.set_slice_whole, Rect.mem_set_unit]
  exact Iff.rfl

theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2_1).slice (win0_5.rect t)).set ↔ _
  rw [View.set_slice_whole, Rect.mem_set_unit]
  exact Iff.rfl

theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v2_2).slice (win0_6.rect t)).set ↔ _
  rw [View.set_slice_whole, Rect.mem_set_unit]
  exact Iff.rfl

/-- The grid point whose block holds row r: r / 5000. -/
def point0 (i : S100000x128.Idx) : Fin cfg0.N :=
  ⟨(i 0).val / 5000, by have h : (i 0).val < 100000 := (i 0).isLt; rw [show cfg0.N = 20 from N_0]; omega⟩

/-- Every index of a result array is in the block of the point its row names. -/
theorem cover0_4 (i : S100000x128.Idx) : ∃ t : Fin cfg0.N, (cfg0.win 4).flush t = true ∧ i ∈ ((cfg0.win 4).blk t).view.set := by
  have h0 : (i 0).val < 100000 := (i 0).isLt
  have h1 : (i 1).val < 128 := (i 1).isLt
  obtain ⟨-, -, -, -, -, -, -, e0, e1, -⟩ := idx_facts0 (point0 i)
  have ht : (point0 i).val = (i 0).val / 5000 := rfl
  refine ⟨point0 i, flush0_4 _, ?_⟩
  rw [mem_blk0_4]
  intro a
  match a with
  | ⟨0, _⟩ => show win0_4.index (point0 i) (0 : Fin 2) * 5000 ≤ (i 0).val ∧ (i 0).val < win0_4.index (point0 i) (0 : Fin 2) * 5000 + 5000; rw [e0, ht]; omega
  | ⟨1, _⟩ => show win0_4.index (point0 i) (1 : Fin 2) * 128 ≤ (i 1).val ∧ (i 1).val < win0_4.index (point0 i) (1 : Fin 2) * 128 + 128; rw [e1]; omega

theorem cover0_5 (i : S100000x128.Idx) : ∃ t : Fin cfg0.N, (cfg0.win 5).flush t = true ∧ i ∈ ((cfg0.win 5).blk t).view.set := by
  have h0 : (i 0).val < 100000 := (i 0).isLt
  have h1 : (i 1).val < 128 := (i 1).isLt
  obtain ⟨-, -, -, -, -, -, -, -, -, e0, e1, -⟩ := idx_facts0 (point0 i)
  have ht : (point0 i).val = (i 0).val / 5000 := rfl
  refine ⟨point0 i, flush0_5 _, ?_⟩
  rw [mem_blk0_5]
  intro a
  match a with
  | ⟨0, _⟩ => show win0_5.index (point0 i) (0 : Fin 2) * 5000 ≤ (i 0).val ∧ (i 0).val < win0_5.index (point0 i) (0 : Fin 2) * 5000 + 5000; rw [e0, ht]; omega
  | ⟨1, _⟩ => show win0_5.index (point0 i) (1 : Fin 2) * 128 ≤ (i 1).val ∧ (i 1).val < win0_5.index (point0 i) (1 : Fin 2) * 128 + 128; rw [e1]; omega

theorem cover0_6 (i : S100000x128.Idx) : ∃ t : Fin cfg0.N, (cfg0.win 6).flush t = true ∧ i ∈ ((cfg0.win 6).blk t).view.set := by
  have h0 : (i 0).val < 100000 := (i 0).isLt
  have h1 : (i 1).val < 128 := (i 1).isLt
  obtain ⟨-, -, -, -, -, -, -, -, -, -, -, e0, e1⟩ := idx_facts0 (point0 i)
  have ht : (point0 i).val = (i 0).val / 5000 := rfl
  refine ⟨point0 i, flush0_6 _, ?_⟩
  rw [mem_blk0_6]
  intro a
  match a with
  | ⟨0, _⟩ => show win0_6.index (point0 i) (0 : Fin 2) * 5000 ≤ (i 0).val ∧ (i 0).val < win0_6.index (point0 i) (0 : Fin 2) * 5000 + 5000; rw [e0, ht]; omega
  | ⟨1, _⟩ => show win0_6.index (point0 i) (1 : Fin 2) * 128 ≤ (i 1).val ∧ (i 1).val < win0_6.index (point0 i) (1 : Fin 2) * 128 + 128; rw [e1]; omega

/-- After the region the first result is the biased product of the features with the first weight matrix. -/
theorem user_P (c : Dev nD) : (dat0 (F := Ideal) V c).arrAt 4 cfg0.N
    = linearBias (n := 100000) (V c main_arg0) (V c main_v0) (V c main_arg3) :=
  (dat0 V c).arrAt_eq_of_cover 4 _ (fun t _ => flushed0_4 V c t) cover0_4

/-- The second result is the product with the second weight matrix. -/
theorem user_Q (c : Dev nD) : (dat0 (F := Ideal) V c).arrAt 5 cfg0.N
    = linear (n := 100000) (V c main_arg0) (V c main_v1) :=
  (dat0 V c).arrAt_eq_of_cover 5 _ (fun t _ => flushed0_5 V c t) cover0_5

/-- The third result is their sum, entry by entry. -/
theorem user_S (c : Dev nD) : (dat0 (F := Ideal) V c).arrAt 6 cfg0.N
    = fun i => linearBias (n := 100000) (V c main_arg0) (V c main_v0) (V c main_arg3) i
        + linear (n := 100000) (V c main_arg0) (V c main_v1) i :=
  (dat0 V c).arrAt_eq_of_cover 6 _ (fun t _ => flushed0_6 V c t) cover0_6

/-! ## Region 1: the item projections, from blocks to arrays

The region's grid has 10 points; point t reads rows 5000 t … 5000 t + 4999 of the node features, the two
weight matrices and the bias whole, and writes the same rows of the three results. -/

/-- The index maps, decided over the grid: the row-blocked windows are at block (t, 0), the whole-array windows
    at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The block of node features at point t is rows 5000 t … 5000 t + 4999 of the array. -/
theorem features1_apply (c : Dev nD) (t : Fin cfg1.N) (p : Fin 5000) (k : Fin 128) (r : Fin 50000)
    (hr : r.val = 5000 * t.val + p.val) :
    (iblk1 V c 0 t : Vec Ideal S5000x128 .f32) (ix2 p k) = (V c main_arg1 : S50000x128.Idx → EReal) (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The first weight matrix's block is the whole matrix. -/
theorem weight1_1_eq (c : Dev nD) (t : Fin cfg1.N) :
    (iblk1 V c 1 t : Vec Ideal S128x128 .f32) = (V c main_v0 : S128x128.Idx → EReal) := by
  obtain ⟨-, -, e0, e1, -⟩ := idx_facts1 t
  unfold iblk1
  funext y
  rw [View.read_apply]
  show V c main_v0 _ = V c main_v0 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias's block is the whole bias. -/
theorem bias1_eq (c : Dev nD) (t : Fin cfg1.N) :
    (iblk1 V c 2 t : Vec Ideal S128 .f32) = (V c main_arg3 : S128.Idx → EReal) := by
  obtain ⟨-, -, -, -, e0, -⟩ := idx_facts1 t
  unfold iblk1
  funext y
  rw [View.read_apply]
  show V c main_arg3 _ = V c main_arg3 _
  congr 1
  funext a
  apply Fin.ext
  match a with
  | ⟨0, _⟩ => show win1_2.index t (0 : Fin 1) * 128 + 1 * (y 0).val = (y 0).val; rw [e0]; omega

/-- The second weight matrix's block is the whole matrix. -/
theorem weight2_1_eq (c : Dev nD) (t : Fin cfg1.N) :
    (iblk1 V c 3 t : Vec Ideal S128x128 .f32) = (V c main_v1 : S128x128.Idx → EReal) := by
  obtain ⟨-, -, -, -, -, e0, e1, -⟩ := idx_facts1 t
  unfold iblk1
  funext y
  rw [View.read_apply]
  show V c main_v1 _ = V c main_v1 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- What point t writes back to the first result is block t of the biased product of the whole arrays. -/
theorem flushed1_4 (c : Dev nD) (t : Fin cfg1.N) :
    (dat1 (F := Ideal) V c).flushed 4 t = ((cfg1.win 4).blk t).view.read (Elt Ideal)
      (linearBias (n := 50000) (V c main_arg1) (V c main_v0) (V c main_arg3)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x128) hz2, View.ld_unit_zero (S := S128) hz1]
  rw [weight1_1_eq, bias1_eq]
  obtain ⟨-, -, -, -, -, -, -, e0, e1, -⟩ := idx_facts1 t
  funext y
  obtain ⟨p, q, rfl⟩ : ∃ (p : Fin 5000) (q : Fin 128), y = ix2 p q := ⟨y 0, y 1, eq_ix2 y⟩
  refine biased_product_at (iblk1 V c 0 t) (V c main_arg1) (V c main_v0) (V c main_arg3) p q
    (((cfg1.win 4).blk t).view.emb (ix2 p q)) (fun k => features1_apply V c t p k _ ?_) ?_
  · show win1_4.index t (0 : Fin 2) * 5000 + 1 * p.val = 5000 * t.val + p.val; rw [e0]; omega
  · show win1_4.index t (1 : Fin 2) * 128 + 1 * q.val = q.val; rw [e1]; omega

/-- What point t writes back to the second result is block t of the product of the whole arrays. -/
theorem flushed1_5 (c : Dev nD) (t : Fin cfg1.N) :
    (dat1 (F := Ideal) V c).flushed 5 t = ((cfg1.win 5).blk t).view.read (Elt Ideal)
      (linear (n := 50000) (V c main_arg1) (V c main_v1)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2]
  rw [weight2_1_eq]
  obtain ⟨-, -, -, -, -, -, -, -, -, e0, e1, -⟩ := idx_facts1 t
  funext y
  obtain ⟨p, q, rfl⟩ : ∃ (p : Fin 5000) (q : Fin 128), y = ix2 p q := ⟨y 0, y 1, eq_ix2 y⟩
  refine product_at (iblk1 V c 0 t) (V c main_arg1) (V c main_v1) p q
    (((cfg1.win 5).blk t).view.emb (ix2 p q)) (fun k => features1_apply V c t p k _ ?_) ?_
  · show win1_5.index t (0 : Fin 2) * 5000 + 1 * p.val = 5000 * t.val + p.val; rw [e0]; omega
  · show win1_5.index t (1 : Fin 2) * 128 + 1 * q.val = q.val; rw [e1]; omega

/-- What point t writes back to the third result is block t of the sum of the two. -/
theorem flushed1_6 (c : Dev nD) (t : Fin cfg1.N) :
    (dat1 (F := Ideal) V c).flushed 6 t = ((cfg1.win 6).blk t).view.read (Elt Ideal)
      (fun i => linearBias (n := 50000) (V c main_arg1) (V c main_v0) (V c main_arg3) i
        + linear (n := 50000) (V c main_arg1) (V c main_v1) i) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [weight1_1_eq, weight2_1_eq, bias1_eq]
  obtain ⟨-, -, -, -, -, -, -, -, -, -, -, e0, e1⟩ := idx_facts1 t
  funext y
  obtain ⟨p, q, rfl⟩ : ∃ (p : Fin 5000) (q : Fin 128), y = ix2 p q := ⟨y 0, y 1, eq_ix2 y⟩
  refine sum_at (iblk1 V c 0 t) (V c main_arg1) (V c main_v0) (V c main_v1) (V c main_arg3) p q
    (((cfg1.win 6).blk t).view.emb (ix2 p q)) (fun k => features1_apply V c t p k _ ?_) ?_
  · show win1_6.index t (0 : Fin 2) * 5000 + 1 * p.val = 5000 * t.val + p.val; rw [e0]; omega
  · show win1_6.index t (1 : Fin 2) * 128 + 1 * q.val = q.val; rw [e1]; omega

/-- An index of a result array is in point t's block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v3_0).slice (win1_4.rect t)).set ↔ _
  rw [View.set_slice_whole, Rect.mem_set_unit]
  exact Iff.rfl

theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v3_1).slice (win1_5.rect t)).set ↔ _
  rw [View.set_slice_whole, Rect.mem_set_unit]
  exact Iff.rfl

theorem mem_blk1_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v3_2).slice (win1_6.rect t)).set ↔ _
  rw [View.set_slice_whole, Rect.mem_set_unit]
  exact Iff.rfl

/-- The grid point whose block holds row r: r / 5000. -/
def point1 (i : S50000x128.Idx) : Fin cfg1.N :=
  ⟨(i 0).val / 5000, by have h : (i 0).val < 50000 := (i 0).isLt; rw [show cfg1.N = 10 from N_1]; omega⟩

/-- Every index of a result array is in the block of the point its row names. -/
theorem cover1_4 (i : S50000x128.Idx) : ∃ t : Fin cfg1.N, (cfg1.win 4).flush t = true ∧ i ∈ ((cfg1.win 4).blk t).view.set := by
  have h0 : (i 0).val < 50000 := (i 0).isLt
  have h1 : (i 1).val < 128 := (i 1).isLt
  obtain ⟨-, -, -, -, -, -, -, e0, e1, -⟩ := idx_facts1 (point1 i)
  have ht : (point1 i).val = (i 0).val / 5000 := rfl
  refine ⟨point1 i, flush1_4 _, ?_⟩
  rw [mem_blk1_4]
  intro a
  match a with
  | ⟨0, _⟩ => show win1_4.index (point1 i) (0 : Fin 2) * 5000 ≤ (i 0).val ∧ (i 0).val < win1_4.index (point1 i) (0 : Fin 2) * 5000 + 5000; rw [e0, ht]; omega
  | ⟨1, _⟩ => show win1_4.index (point1 i) (1 : Fin 2) * 128 ≤ (i 1).val ∧ (i 1).val < win1_4.index (point1 i) (1 : Fin 2) * 128 + 128; rw [e1]; omega

theorem cover1_5 (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  obtain ⟨-, -, -, -, -, -, -, -, -, e0, e1, -⟩ := idx_facts1 (point1 i)
  have ht : (point1 i).val = (i 0).val / 5000 := rfl
  refine ⟨point1 i, flush1_5 _, ?_⟩
  rw [mem_blk1_5]
  intro a
  match a with
  | ⟨0, _⟩ => show win1_5.index (point1 i) (0 : Fin 2) * 5000 ≤ (i 0).val ∧ (i 0).val < win1_5.index (point1 i) (0 : Fin 2) * 5000 + 5000; rw [e0, ht]; omega
  | ⟨1, _⟩ => show win1_5.index (point1 i) (1 : Fin 2) * 128 ≤ (i 1).val ∧ (i 1).val < win1_5.index (point1 i) (1 : Fin 2) * 128 + 128; rw [e1]; omega

theorem cover1_6 (i : S50000x128.Idx) : ∃ t : Fin cfg1.N, (cfg1.win 6).flush t = true ∧ i ∈ ((cfg1.win 6).blk t).view.set := by
  have h0 : (i 0).val < 50000 := (i 0).isLt
  have h1 : (i 1).val < 128 := (i 1).isLt
  obtain ⟨-, -, -, -, -, -, -, -, -, -, -, e0, e1⟩ := idx_facts1 (point1 i)
  have ht : (point1 i).val = (i 0).val / 5000 := rfl
  refine ⟨point1 i, flush1_6 _, ?_⟩
  rw [mem_blk1_6]
  intro a
  match a with
  | ⟨0, _⟩ => show win1_6.index (point1 i) (0 : Fin 2) * 5000 ≤ (i 0).val ∧ (i 0).val < win1_6.index (point1 i) (0 : Fin 2) * 5000 + 5000; rw [e0, ht]; omega
  | ⟨1, _⟩ => show win1_6.index (point1 i) (1 : Fin 2) * 128 ≤ (i 1).val ∧ (i 1).val < win1_6.index (point1 i) (1 : Fin 2) * 128 + 128; rw [e1]; omega

/-- After the region the first result is the biased product of the features with the first weight matrix. -/
theorem item_P (c : Dev nD) : (dat1 (F := Ideal) V c).arrAt 4 cfg1.N
    = linearBias (n := 50000) (V c main_arg1) (V c main_v0) (V c main_arg3) :=
  (dat1 V c).arrAt_eq_of_cover 4 _ (fun t _ => flushed1_4 V c t) cover1_4

/-- The second result is the product with the second weight matrix. -/
theorem item_Q (c : Dev nD) : (dat1 (F := Ideal) V c).arrAt 5 cfg1.N
    = linear (n := 50000) (V c main_arg1) (V c main_v1) :=
  (dat1 V c).arrAt_eq_of_cover 5 _ (fun t _ => flushed1_5 V c t) cover1_5

/-- The third result is their sum, entry by entry. -/
theorem item_S (c : Dev nD) : (dat1 (F := Ideal) V c).arrAt 6 cfg1.N
    = fun i => linearBias (n := 50000) (V c main_arg1) (V c main_v0) (V c main_arg3) i
        + linear (n := 50000) (V c main_arg1) (V c main_v1) i :=
  (dat1 V c).arrAt_eq_of_cover 6 _ (fun t _ => flushed1_6 V c t) cover1_6

end Cert.KernelIdeal.ProjectValue

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.FinalizeBlock.lean ====
/-
  The finalize body of the graph convolution, read index by index on the extended reals.

  A block of the body's result is computed from a block `x0` of the node's own projection and a block `x1` of
  what its neighbours sent: the leaky rectifier of their sum, each row divided by the larger of its Euclidean
  norm and ε.  Two statements:

  * `finalize_apply`: the body's stored value at row `p`, column `q` of the block, as that expression of the two
    blocks' entries in row `p`;
  * `finalize_block`: when row `p` of both blocks is row `r p` of two whole arrays `P` and `A`, that value is the
    specification's `readout P A` at `(r p, q)` — the row sum ranges over the 128 columns of that same row.
-/
import proofs.«152876_j12936441495793_2_alg».proof.Proof.Gen.KernelIdeal.Skeleton
import proofs.«152876_j12936441495793_2_alg».proof.Proof.Spec
import proofs.«152876_j12936441495793_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.FinalizeValue

open Idealize.ShloMosaic Idealize.ShloMosaic.TcCoe Idealize.SL.Sem Cert.KernelIdeal Cert.KernelIdeal.Gen Cert.BipartiteConv
open Idealize.ShloMosaic.ValueIdx

/-- The body's stored value at row `p`, column `q`: the rectified sum there, divided by the larger of the
    Euclidean norm of the rectified row `p` and ε. -/
theorem finalize_apply (x0 x1 : Vec Ideal S5000x128 .f32) (p : Fin 5000) (q : Fin 128) :
    k2_pay1 (F := Ideal) x0 x1 (ix2 p q)
      = Ideal.div (leaky (x0 (ix2 p q) + x1 (ix2 p q)))
          (max (Ideal.sqrt (∑ k : Fin 128, leaky (x0 (ix2 p k) + x1 (ix2 p k)) * leaky (x0 (ix2 p k) + x1 (ix2 p k))))
            (Ideal.ofBits .f32 0x2B8CBCCC#32)) := by
  unfold k2_pay1
  simp only [shapeCast_self]
  refine congrArg₂ Ideal.div rfl ?_
  refine (Cert.LibKeepdims.broadcastTo_a1_ab_apply _ _ p q).trans ?_
  refine congrArg₂ max (congrArg Ideal.sqrt ?_) rfl
  refine (Cert.LibKeepdims.shapeCast_a_a1_apply _ _ p 0).trans ?_
  refine (Cert.LibKeepdims.add_axis1_apply _ _ _ _ _ p).trans ?_
  rfl

/-- The items' region runs the same body: its payload is the users' one, term for term. -/
theorem k3_pay1_eq (x0 x1 : Vec Ideal S5000x128 .f32) : k3_pay1 (F := Ideal) x0 x1 = k2_pay1 (F := Ideal) x0 x1 := rfl

/-- When row `p` of the two blocks is row `r p` of two whole arrays `P` and `A` (column for column), the body's
    stored value at `(p, q)` is the readout of `P` and `A` at `(r p, q)`: the norm is taken over the 128 columns of
    that same row of the arrays. -/
theorem finalize_block {n : ℕ} (x0 x1 : Vec Ideal S5000x128 .f32) (P A : (⟨2, ![n, 128]⟩ : Shape).Idx → EReal)
    (r : Fin 5000 → Fin n)
    (h0 : ∀ (p : Fin 5000) (k : Fin 128), x0 (ix2 p k) = P (ix2 (r p) k))
    (h1 : ∀ (p : Fin 5000) (k : Fin 128), x1 (ix2 p k) = A (ix2 (r p) k)) (p : Fin 5000) (q : Fin 128) :
    k2_pay1 (F := Ideal) x0 x1 (ix2 p q) = readout P A (ix2 (r p) q) := by
  rw [finalize_apply]
  simp only [h0, h1]
  rfl

end Cert.KernelIdeal.FinalizeValue

end
-- ==== Proof.FinalizeArrays.lean ====
/-
  The two finalize regions of the graph convolution, from blocks to whole arrays, on the extended reals.

  Each region walks its node array in blocks of 5000 rows: point `t` reads rows `5000·t … 5000·t + 4999` of the
  node's own projection and of what its neighbours sent, and writes the same rows of the result.  All three windows
  of a region move together, so row `p` of every block at point `t` is row `5000·t + p` of its array, and the row
  norm the body takes inside a block is the norm of that whole row of the arrays.  Hence what point `t` writes back is
  block `t` of the specification's `readout`; the blocks cover the array (row `r` lies in block `r / 5000`); so the
  result array is `readout` of the two input arrays.  Once for the users (100000 rows, 20 points), once for the
  items (50000 rows, 10 points).
-/
import proofs.«152876_j12936441495793_2_alg».proof.Proof.Gen.KernelIdeal.Frame
import proofs.«152876_j12936441495793_2_alg».proof.Proof.Spec
import proofs.«152876_j12936441495793_2_alg».proof.Proof.LibKeepdims
import proofs.«152876_j12936441495793_2_alg».proof.Proof.FinalizeBlock
import Idealize.ShloMosaic.Lib.ValueIdx
import Idealize.ShloMosaic.Lib.Pipeline.Value

noncomputable section

namespace Cert.KernelIdeal.FinalizeValue

open Idealize.ShloMosaic Idealize.ShloMosaic.TcCoe Idealize.SL.Sem Cert.KernelIdeal Cert.KernelIdeal.Gen Cert.BipartiteConv
open Idealize.ShloMosaic.ValueIdx
open Idealize.ShloMosaic.Pipeline (Dat)

variable (V : (c : Dev nD) → (b : Ref sig .tc) → Buf (Elt Ideal) ((c : Thread nD τ).loc b))

/-- The body's one load and one store start at the block's origin. -/
theorem origin : (![0, 0] : Fin 2 → Nat) = fun _ => 0 := funext fun a => by fin_cases a <;> rfl

/-! ## The users' region: 100000 rows in 20 blocks -/

/-- The three windows' index maps, decided over the 20 points: block row `t`, block column 0, for each. -/
theorem user_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p` of the block at point `t` is row `5000·t + p` of the array. -/
def userRow (t : Fin cfg2.N) (p : Fin 5000) : Fin 100000 :=
  ⟨t.val * 5000 + p.val, by have hN : cfg2.N = 20 := N_2; have ht := t.isLt; have hp := p.isLt; omega⟩

/-- Where an entry of the own-projection block sits in its array. -/
theorem user_emb0 (t : Fin cfg2.N) (p : Fin 5000) (q : Fin 128) :
    ((cfg2.win 0).blk t).view.emb (ix2 p q) = (ix2 (userRow t p) q : S100000x128.Idx) := by
  obtain ⟨e0, e1, -, -, -, -⟩ := user_idx t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- Where an entry of the neighbours' block sits in its array. -/
theorem user_emb1 (t : Fin cfg2.N) (p : Fin 5000) (q : Fin 128) :
    ((cfg2.win 1).blk t).view.emb (ix2 p q) = (ix2 (userRow t p) q : S100000x128.Idx) := by
  obtain ⟨-, -, e0, e1, -, -⟩ := user_idx t
  funext a; apply Fin.ext
  match a with
  | ⟨0, _⟩ => show win2_1.index t (0 : Fin 2) * 5000 + 1 * p.val = t.val * 5000 + p.val; rw [e0]; omega
  | ⟨1, _⟩ => show win2_1.index t (1 : Fin 2) * 128 + 1 * q.val = q.val; rw [e1]; omega

/-- Where an entry of the result block sits in its array. -/
theorem user_emb2 (t : Fin cfg2.N) (p : Fin 5000) (q : Fin 128) :
    ((cfg2.win 2).blk t).view.emb (ix2 p q) = (ix2 (userRow t p) q : S100000x128.Idx) := by
  obtain ⟨-, -, -, -, e0, e1⟩ := user_idx t
  funext a; apply Fin.ext
  match a with
  | ⟨0, _⟩ => show win2_2.index t (0 : Fin 2) * 5000 + 1 * p.val = t.val * 5000 + p.val; rw [e0]; omega
  | ⟨1, _⟩ => show win2_2.index t (1 : Fin 2) * 128 + 1 * q.val = q.val; rw [e1]; omega

/-- The own-projection block at point `t`, entry by entry, is its array at the block's rows. -/
theorem user_blk0 (c : Dev nD) (t : Fin cfg2.N) (p : Fin 5000) (k : Fin 128) :
    (iblk2 (F := Ideal) V c 0 t : Vec Ideal S5000x128 .f32) (ix2 p k)
      = (V c main_v2_0 : S100000x128.Idx → EReal) (ix2 (userRow t p) k) := by
  show (V c main_v2_0 : S100000x128.Idx → EReal) (((cfg2.win 0).blk t).view.emb (ix2 p k)) = _
  rw [user_emb0 t p k]

/-- The neighbours' block at point `t`, entry by entry, is its array at the block's rows. -/
theorem user_blk1 (c : Dev nD) (t : Fin cfg2.N) (p : Fin 5000) (k : Fin 128) :
    (iblk2 (F := Ideal) V c 1 t : Vec Ideal S5000x128 .f32) (ix2 p k)
      = (V c main_v49 : S100000x128.Idx → EReal) (ix2 (userRow t p) k) := by
  show (V c main_v49 : S100000x128.Idx → EReal) (((cfg2.win 1).blk t).view.emb (ix2 p k)) = _
  rw [user_emb1 t p k]

/-- What point `t` writes back is block `t` of the readout of the two input arrays. -/
theorem user_flushed (c : Dev nD) (t : Fin cfg2.N) :
    (dat2 (F := Ideal) V c).flushed 2 t
      = ((cfg2.win 2).blk t).view.read (Elt Ideal) (readout (n := 100000) (V c main_v2_0) (V c main_v49)) := by
  show (cfg2.win 2).cut (grid2.coords t) ((dat2 (F := Ideal) V c).after 2 t) = _
  rw [after2_2]
  unfold out2_2
  rw [View.canon_unit_zero origin]
  simp only [View.ld_unit_zero (S := S5000x128) origin]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
      = readout (n := 100000) (V c main_v2_0) (V c main_v49) (((cfg2.win 2).blk t).view.emb (ix2 p q))
  rw [user_emb2 t p q]
  exact finalize_block (iblk2 (F := Ideal) V c 0 t) (iblk2 (F := Ideal) V c 1 t) (V c main_v2_0) (V c main_v49) (userRow t)
    (user_blk0 V c t) (user_blk1 V c t) p q

/-- An index of the result array is in point `t`'s block iff each coordinate is in the block's range on its axis. -/
theorem user_mem (t : Fin cfg2.N) (i : S100000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v50).slice (win2_2.rect t)).set ↔ _
  rw [View.set_slice_whole, Rect.mem_set_unit]
  exact Iff.rfl

/-- Every row of the result array lies in some point's block: row `r` in block `r / 5000`. -/
theorem user_cover (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨-, -, -, -, e0, e1⟩ := user_idx t
  refine ⟨t, flush2_2 t, ?_⟩
  rw [user_mem]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 128 ≤ (i 1).val ∧ (i 1).val < win2_2.index t (1 : Fin 2) * 128 + 128
    rw [e1]; omega

/-- THE USERS' RESULT ARRAY after the region: the readout of the users' own projection and of what the items sent. -/
theorem user_out (c : Dev nD) :
    (dat2 (F := Ideal) V c).arrAt 2 cfg2.N = readout (n := 100000) (V c main_v2_0) (V c main_v49) :=
  (dat2 (F := Ideal) V c).arrAt_eq_of_cover 2 (readout (n := 100000) (V c main_v2_0) (V c main_v49))
    (fun t _ => user_flushed V c t) user_cover

/-! ## The items' region: 50000 rows in 10 blocks, the same body -/

/-- The three windows' index maps, decided over the 10 points: block row `t`, block column 0, for each. -/
theorem item_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row `p` of the block at point `t` is row `5000·t + p` of the array. -/
def itemRow (t : Fin cfg3.N) (p : Fin 5000) : Fin 50000 :=
  ⟨t.val * 5000 + p.val, by have hN : cfg3.N = 10 := N_3; have ht := t.isLt; have hp := p.isLt; omega⟩

/-- Where an entry of the own-projection block sits in its array. -/
theorem item_emb0 (t : Fin cfg3.N) (p : Fin 5000) (q : Fin 128) :
    ((cfg3.win 0).blk t).view.emb (ix2 p q) = (ix2 (itemRow t p) q : S50000x128.Idx) := by
  obtain ⟨e0, e1, -, -, -, -⟩ := item_idx t
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- Where an entry of the neighbours' block sits in its array. -/
theorem item_emb1 (t : Fin cfg3.N) (p : Fin 5000) (q : Fin 128) :
    ((cfg3.win 1).blk t).view.emb (ix2 p q) = (ix2 (itemRow t p) q : S50000x128.Idx) := by
  obtain ⟨-, -, e0, e1, -, -⟩ := item_idx t
  funext a; apply Fin.ext
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

/-- Where an entry of the result block sits in its array. -/
theorem item_emb2 (t : Fin cfg3.N) (p : Fin 5000) (q : Fin 128) :
    ((cfg3.win 2).blk t).view.emb (ix2 p q) = (ix2 (itemRow t p) q : S50000x128.Idx) := by
  obtain ⟨-, -, -, -, e0, e1⟩ := item_idx t
  funext a; apply Fin.ext
  match a with
  | ⟨0, _⟩ => show win3_2.index t (0 : Fin 2) * 5000 + 1 * p.val = t.val * 5000 + p.val; rw [e0]; omega
  | ⟨1, _⟩ => show win3_2.index t (1 : Fin 2) * 128 + 1 * q.val = q.val; rw [e1]; omega

/-- The own-projection block at point `t`, entry by entry, is its array at the block's rows. -/
theorem item_blk0 (c : Dev nD) (t : Fin cfg3.N) (p : Fin 5000) (k : Fin 128) :
    (iblk3 (F := Ideal) V c 0 t : Vec Ideal S5000x128 .f32) (ix2 p k)
      = (V c main_v3_0 : S50000x128.Idx → EReal) (ix2 (itemRow t p) k) := by
  show (V c main_v3_0 : S50000x128.Idx → EReal) (((cfg3.win 0).blk t).view.emb (ix2 p k)) = _
  rw [item_emb0 t p k]

/-- The neighbours' block at point `t`, entry by entry, is its array at the block's rows. -/
theorem item_blk1 (c : Dev nD) (t : Fin cfg3.N) (p : Fin 5000) (k : Fin 128) :
    (iblk3 (F := Ideal) V c 1 t : Vec Ideal S5000x128 .f32) (ix2 p k)
      = (V c main_v26 : S50000x128.Idx → EReal) (ix2 (itemRow t p) k) := by
  show (V c main_v26 : S50000x128.Idx → EReal) (((cfg3.win 1).blk t).view.emb (ix2 p k)) = _
  rw [item_emb1 t p k]

/-- What point `t` writes back is block `t` of the readout of the two input arrays. -/
theorem item_flushed (c : Dev nD) (t : Fin cfg3.N) :
    (dat3 (F := Ideal) V c).flushed 2 t
      = ((cfg3.win 2).blk t).view.read (Elt Ideal) (readout (n := 50000) (V c main_v3_0) (V c main_v26)) := by
  show (cfg3.win 2).cut (grid3.coords t) ((dat3 (F := Ideal) V c).after 2 t) = _
  rw [after3_2]
  unfold out3_2
  rw [View.canon_unit_zero origin]
  simp only [View.ld_unit_zero (S := S5000x128) origin]
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
      = readout (n := 50000) (V c main_v3_0) (V c main_v26) (((cfg3.win 2).blk t).view.emb (ix2 p q))
  rw [item_emb2 t p q]
  exact (congrFun (k3_pay1_eq (iblk3 (F := Ideal) V c 0 t) (iblk3 (F := Ideal) V c 1 t)) (ix2 p q)).trans
    (finalize_block (iblk3 (F := Ideal) V c 0 t) (iblk3 (F := Ideal) V c 1 t) (V c main_v3_0) (V c main_v26) (itemRow t)
      (item_blk0 V c t) (item_blk1 V c t) p q)

/-- An index of the result array is in point `t`'s block iff each coordinate is in the block's range on its axis. -/
theorem item_mem (t : Fin cfg3.N) (i : S50000x128.Idx) :
    i ∈ ((cfg3.win 2).blk t).view.set
      ↔ ∀ a : Fin 2, win3_2.index t a * S5000x128.size a ≤ (i a).val
          ∧ (i a).val < win3_2.index t a * S5000x128.size a + S5000x128.size a := by
  show i ∈ ((View.whole main_v51).slice (win3_2.rect t)).set ↔ _
  rw [View.set_slice_whole, Rect.mem_set_unit]
  exact Iff.rfl

/-- Every row of the result array lies in some point's block: row `r` in block `r / 5000`. -/
theorem item_cover (i : S50000x128.Idx) :
    ∃ t : Fin cfg3.N, (cfg3.win 2).flush t = true ∧ i ∈ ((cfg3.win 2).blk t).view.set := by
  have hN : cfg3.N = 10 := N_3
  have hi0 : (i 0).val < 50000 := (i 0).isLt
  have hi1 : (i 1).val < 128 := (i 1).isLt
  obtain ⟨t, ht⟩ : ∃ t : Fin cfg3.N, t.val = (i 0).val / 5000 := ⟨⟨(i 0).val / 5000, by omega⟩, rfl⟩
  obtain ⟨-, -, -, -, e0, e1⟩ := item_idx t
  refine ⟨t, flush3_2 t, ?_⟩
  rw [item_mem]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 128 ≤ (i 1).val ∧ (i 1).val < win3_2.index t (1 : Fin 2) * 128 + 128
    rw [e1]; omega

/-- THE ITEMS' RESULT ARRAY after the region: the readout of the items' own projection and of what the users sent. -/
theorem item_out (c : Dev nD) :
    (dat3 (F := Ideal) V c).arrAt 2 cfg3.N = readout (n := 50000) (V c main_v3_0) (V c main_v26) :=
  (dat3 (F := Ideal) V c).arrAt_eq_of_cover 2 (readout (n := 50000) (V c main_v3_0) (V c main_v26))
    (fun t _ => item_flushed V c t) item_cover

end Cert.KernelIdeal.FinalizeValue

end
-- ==== Proof.Results.lean ====
/-
  The kernel program's two results are the reference's two results, as functions of the launch memory.

  The last boundary's contents at a result buffer is what its readout region left there: the `readout` of the node
  type's own projection P and of what its neighbours sent. Walking the boundaries back, P is the projection region's
  first output, `x·W₁ᵀ + b₁` of the launch memory, and the neighbours' sum is the middle stretch's term over the other
  projection region's S = P + Q and this one's Q — which is the reference's neighbour sum (a row gather commutes with
  an elementwise sum). The reference's result is the same `readout` of the same two arrays.
-/
import proofs.«152876_j12936441495793_2_alg».proof.Proof.Fold
import proofs.«152876_j12936441495793_2_alg».proof.Proof.Spec
import proofs.«152876_j12936441495793_2_alg».proof.Proof.RefStages
import proofs.«152876_j12936441495793_2_alg».proof.Proof.Messages
import proofs.«152876_j12936441495793_2_alg».proof.Proof.ProjectArrays
import proofs.«152876_j12936441495793_2_alg».proof.Proof.FinalizeArrays

set_option maxRecDepth 16384

noncomputable section

namespace Cert.Proof.Results

open Idealize.ShloMosaic Idealize.ShloMosaic.TcCoe Idealize.SL.Sem Idealize.ShloMosaic.ValueIdx
open Cert.ReferenceIdeal.Read Cert.ReferenceIdeal.RefValue Cert.BipartiteConv
open Cert.KernelIdeal.Gen Cert.KernelIdeal.Fold Cert.KernelIdeal.ProjectValue Cert.KernelIdeal.FinalizeValue

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The users' result: the readout of `x₀·W₁ᵀ + b₁` and of the messages the items sent, which is the reference's. -/
theorem user_result : W6 m ρ c (Proc.devRef .tc Cert.KernelIdeal.main_v50)
    = val_main_v90 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  -- the users' own projection, as the readout region finds it
  have hP : V4 m ρ c Cert.KernelIdeal.main_v2_0 = linearBias (n := 100000) (m ((c : Thread Cert.KernelIdeal.nD Cert.KernelIdeal.τ).loc Cert.KernelIdeal.main_arg0)) (val_main_v0 (m ((c : Thread Cert.KernelIdeal.nD Cert.KernelIdeal.τ).loc Cert.KernelIdeal.main_arg2))) (m ((c : Thread Cert.KernelIdeal.nD Cert.KernelIdeal.τ).loc Cert.KernelIdeal.main_arg3)) := by
    rw [V4_user_P, W3_user_P, user_P (V1 m ρ) c, V1_arg0, V1_w1, V1_arg3]; rfl
  -- what the items sent: the middle stretch over the items' S and the users' Q
  have hA : V4 m ρ c Cert.KernelIdeal.main_v49 = val_main_v75 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
    rw [V4_user_agg, W3_item_S, item_S (V2 m ρ) c, W3_user_Q, user_Q (V1 m ρ) c, W3_arg5, W3_arg9, W3_arg10, W3_arg11,
      V2_arg1, V2_w1, V2_arg3, V2_w2, V1_arg0, V1_w1, V1_w2]
    exact Cert.Proof.Messages.user_agg_eq _ _ _ _ _ _ _ _ _
  rw [W6_user, user_out (V4 m ρ) c, hP, hA, out_user, P_user]

/-- The items' result: the readout of `x₁·W₁ᵀ + b₁` and of the messages the users sent, which is the reference's. -/
theorem item_result : W6 m ρ c (Proc.devRef .tc Cert.KernelIdeal.main_v51)
    = val_main_v103 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  -- the items' own projection, as the readout region finds it
  have hP : V5 m ρ c Cert.KernelIdeal.main_v3_0 = linearBias (n := 50000) (m ((c : Thread Cert.KernelIdeal.nD Cert.KernelIdeal.τ).loc Cert.KernelIdeal.main_arg1)) (val_main_v5 (m ((c : Thread Cert.KernelIdeal.nD Cert.KernelIdeal.τ).loc Cert.KernelIdeal.main_arg2))) (m ((c : Thread Cert.KernelIdeal.nD Cert.KernelIdeal.τ).loc Cert.KernelIdeal.main_arg3)) := by
    rw [V5_item_P, V4_item_P, W3_item_P, item_P (V2 m ρ) c, V2_arg1, V2_w1, V2_arg3, V1_w1]; rfl
  -- what the users sent: the middle stretch over the users' S and the items' Q
  have hA : V5 m ρ c Cert.KernelIdeal.main_v26 = val_main_v44 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
    rw [V5_item_agg, V4_item_agg, W3_user_S, user_S (V1 m ρ) c, W3_item_Q, item_Q (V2 m ρ) c, W3_arg5, W3_arg6, W3_arg7, W3_arg8,
      V2_arg1, V2_w2, V1_arg0, V1_w1, V1_arg3, V1_w2]
    exact Cert.Proof.Messages.item_agg_eq _ _ _ _ _ _ _ _ _
  rw [W6_item, item_out (V5 m ρ) c, hP, hA, out_item, P_item]

end Cert.Proof.Results

end
-- ==== Proof.lean ====
/-
  A two-type (user / item) graph convolution: the kernel program against its reference, on the extended reals.

  Per node type, P = x·W₁ᵀ + b₁ and Q = x·W₂ᵀ. Along every edge the destination receives
  norm · (P[src] + Q[src] + Q[dst] + b₂), the messages are summed per destination, and a node's output is the leaky
  rectifier of P plus its received sum, each row divided by max(its Euclidean norm, ε).
  The kernel program computes P, Q and S = P + Q in two pallas regions (blocks of 5000 rows), gathers ONE row of S per
  source endpoint, and reads the outputs off two more regions; the reference gathers P and Q separately. The two agree
  at every input, finite or not, because a row gather commutes with an elementwise sum; no other algebraic law is used,
  so the precondition is never opened.

  The parts: `Spec` (the functions linear, linearBias, leaky, readout), `ProjectArrays` and `FinalizeArrays` (each
  region's output arrays are those functions of the arrays it finds), `Fold` (what every buffer holds between the
  program's segments), `KernelRun` (the kernel program's run with its results named), `RefStages` (the reference's
  stages are the same functions; the gather law), `Messages` and `Results` (the two programs' results are equal).
  The three frames are the programs' own frame runs; the ideal pass rewrote nothing, so there is nothing to preserve.
-/
import proofs.«152876_j12936441495793_2_alg».proof.Defs
import proofs.«152876_j12936441495793_2_alg».proof.Proof.Gen.Kernel
import proofs.«152876_j12936441495793_2_alg».proof.Proof.Gen.Kernel.Skeleton
import proofs.«152876_j12936441495793_2_alg».proof.Proof.Gen.Kernel.Launch
import proofs.«152876_j12936441495793_2_alg».proof.Proof.Gen.Kernel.Points
import proofs.«152876_j12936441495793_2_alg».proof.Proof.Gen.Kernel.Frame
import proofs.«152876_j12936441495793_2_alg».proof.Proof.Gen.KernelIdeal
import proofs.«152876_j12936441495793_2_alg».proof.Proof.Gen.KernelIdeal.Skeleton
import proofs.«152876_j12936441495793_2_alg».proof.Proof.Gen.KernelIdeal.Launch
import proofs.«152876_j12936441495793_2_alg».proof.Proof.Gen.KernelIdeal.Points
import proofs.«152876_j12936441495793_2_alg».proof.Proof.Gen.KernelIdeal.Frame
import proofs.«152876_j12936441495793_2_alg».proof.Proof.Gen.ReferenceIdeal
import proofs.«152876_j12936441495793_2_alg».proof.Proof.Gen.ReferenceIdeal.Run
import proofs.«152876_j12936441495793_2_alg».proof.Proof.Gen.ReferenceIdeal.Read
import proofs.«152876_j12936441495793_2_alg».proof.Proof.Gen.Pre_finite_inputs
import proofs.«152876_j12936441495793_2_alg».proof.Proof.KernelRun
import proofs.«152876_j12936441495793_2_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel program. -/
theorem preserves : Cert.preserves_Kernel_KernelIdeal := trivial

/-- From memories agreeing on the twelve arguments both programs run and end with the same two results: the kernel
    program's are the last boundary's contents at its result buffers, the reference's its run's two terms, and these
    are equal functions of the arguments (`Results.user_result`, `Results.item_result`). -/
theorem algebraic : Cert.algebraic_KernelIdeal_ReferenceIdeal := by
  intro m ρ m' ρ' _ hagree
  refine ⟨fun c => Cert.KernelIdeal.Gen.W6 m ρ c (Proc.devRef .tc Cert.KernelIdeal.main_v50),
    fun c => Cert.KernelIdeal.Gen.W6 m ρ c (Proc.devRef .tc Cert.KernelIdeal.main_v51),
    Cert.KernelIdeal.RunValue.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v90_eq, h0, h1, h2, h3, h4, h5, h9, h10, h11]
    exact (Cert.Proof.Results.user_result m ρ c).symm
  · obtain ⟨h0, h1, h2, h3, h4, h5, h6, h7, h8, h9, h10, h11⟩ := hagree c
    rw [Cert.ReferenceIdeal.Read.val_main_v103_eq, h0, h1, h2, h3, h4, h5, h6, h7, h8]
    exact (Cert.Proof.Results.item_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
